-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S8x256x256 : Shape := ⟨3, ![8, 256, 256]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part3 {F : FTy → Type} [FloatOps F] (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  main_v53

def fn_part2 {F : FTy → Type} [FloatOps F] (main_arg7 : FVec F S384x128 .f32) (main_arg8 : FVec F S384x128 .f32) (main_arg9 : FVec F S384 .f32) (main_arg10 : FVec F S384 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384x128 .f32 := Host.absf main_arg8
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384 .f32 := Host.absf main_arg9
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S384 .f32 := Host.absf main_arg10
  let main_cst_18 : FVec F S_ .f32 := constant S_ .f32 0x7F800000#32
  let main_v50 : FVec F S384 .f32 := broadcastInDim S384 ![] bcast_S_S384 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S384x128 .f32) (main_arg8 : FVec F S384x128 .f32) (main_arg9 : FVec F S384 .f32) (main_arg10 : FVec F S384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x256x128 .f32) (main_arg1 : FVec F S8x256x128 .f32) (main_arg2 : FVec F S8x256x256 .f32) (main_arg3 : FVec F S128x128 .f32) (main_arg4 : FVec F S128 .f32) (main_arg5 : FVec F S128x128 .f32) (main_arg6 : FVec F S128 .f32) (main_arg7 : FVec F S384x128 .f32) (main_arg8 : FVec F S384x128 .f32) (main_arg9 : FVec F S384 .f32) (main_arg10 : FVec F S384 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S8x256x128 .f32 := Host.absf main_arg1
  let main_cst_0 : FVec F S_ .f32 := constant S_ .f32 0x7F800000#32
  let main_v5 : FVec F S8x256x128 .f32 := broadcastInDim S8x256x128 ![] bcast_S_S8x256x128 main_cst_0
  let main_v6 : IVec S8x256x128 1 := cmpf .olt main_v4 main_v5
  let main_c_1 : IVec S_ 1 := constantI S_ 1 1#1
  let main_v7 : IVec S_ 1 := (fun x v => Host.reduce IntOp.andi x v reducesTo_S8x256x128_S_d0_1_2 h_S_) main_v6 main_c_1
  let main_v8 : IVec S_ 1 := andi main_v3 main_v7
  let main_v9 : FVec F S8x256x256 .f32 := Host.absf main_arg2
  let main_cst_2 : FVec F S_ .f32 := constant S_ .f32 0x7F800000#32
  let main_v10 : FVec F S8x256x256 .f32 := broadcastInDim S8x256x256 ![] bcast_S_S8x256x256 main_cst_2
  let main_v11 : IVec S8x256x256 1 := cmpf .olt main_v9 main_v10
  let main_c_3 : IVec S_ 1 := constantI S_ 1 1#1
  let main_v12 : IVec S_ 1 := (fun x v => Host.reduce IntOp.andi x v reducesTo_S8x256x256_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S8x256x128 : Shape := ⟨3, ![8, 256, 128]⟩
abbrev S8x256x256 : Shape := ⟨3, ![8, 256, 256]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1x128 : Shape := ⟨2, ![1, 128]⟩
abbrev S1x384 : Shape := ⟨2, ![1, 384]⟩
abbrev S1x128x128 : Shape := ⟨3, ![1, 128, 128]⟩
abbrev S1x256x128 : Shape := ⟨3, ![1, 256, 128]⟩
abbrev S1x128x256 : Shape := ⟨3, ![1, 128, 256]⟩
abbrev S256x128 : Shape := ⟨2, ![256, 128]⟩
abbrev S128x256 : Shape := ⟨2, ![128, 256]⟩
abbrev S128x64 : Shape := ⟨2, ![128, 64]⟩
abbrev S1x128x64 : Shape := ⟨3, ![1, 128, 64]⟩
abbrev S128x1x64 : Shape := ⟨3, ![128, 1, 64]⟩
abbrev S128x128x64 : Shape := ⟨3, ![128, 128, 64]⟩
abbrev S128x384 : Shape := ⟨2, ![128, 384]⟩

abbrev nBuf : Space → Nat
  | .hbm => 16
  | .vmem => 16
  | .smem => 0
  | _ => 0

abbrev bufTy : (tb : Table) → Fin (tcTables nBuf tb) → BufTy
  | .hbm, ⟨0, _⟩ => ⟨S8x256x128, .f32⟩
  | .hbm, ⟨1, _⟩ => ⟨S8x256x128, .f32⟩
  | .hbm, ⟨2, _⟩ => ⟨S8x256x256, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S384x128, .f32⟩
  | .hbm, ⟨9, _⟩ => ⟨S384, .f32⟩
  | .hbm, ⟨10, _⟩ => ⟨S384, .f32⟩
  | .hbm, ⟨11, _⟩ => ⟨S1x128, .f32⟩
  | .hbm, ⟨12, _⟩ => ⟨S1x128, .f32⟩
  | .hbm, ⟨13, _⟩ => ⟨S1x384, .f32⟩
  | .hbm, ⟨14, _⟩ => ⟨S1x384, .f32⟩
  | .hbm, ⟨15, _⟩ => ⟨S8x256x128, .f32⟩
  | .local _ .vmem, ⟨0, _⟩ => ⟨S1x128x128, .f32⟩
  | .local _ .vmem, ⟨1, _⟩ => ⟨S1x128x128, .f32⟩
  | .local _ .vmem, ⟨2, _⟩ => ⟨S1x256x128, .f32⟩
  | .local _ .vmem, ⟨3, _⟩ => ⟨S1x256x128, .f32⟩
  | .local _ .vmem, ⟨4, _⟩ => ⟨S1x128x256, .f32⟩
  | .local _ .vmem, ⟨5, _⟩ => ⟨S1x128x256, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S384x128, .f32⟩
  | .local _ .vmem, ⟨11, _⟩ => ⟨S384x128, .f32⟩
  | .local _ .vmem, ⟨12, _⟩ => ⟨S1x384, .f32⟩
  | .local _ .vmem, ⟨13, _⟩ => ⟨S1x384, .f32⟩
  | .local _ .vmem, ⟨14, _⟩ => ⟨S1x128x128, .f32⟩
  | .local _ .vmem, ⟨15, _⟩ => ⟨S1x128x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S128_S1x128 : S128.ShapeCasts S1x128
  shapeCasts_S384_S1x384 : S384.ShapeCasts S1x384
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S384x128_S384x128_0_0 : ∀ a, (![0, 0] : Fin 2 → Nat) a + S384x128.size a ≤ S384x128.size a
  h_S384x128 : 0 < S384x128.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  transposes_S128x128_p1_0_S128x128 : S128x128.Transposes [1, 0] S128x128
  broadcasts_S1x128_S128x128 : S1x128.Broadcasts S128x128
  broadcasts_S1x128_S256x128 : S1x128.Broadcasts S256x128
  transposes_S256x128_p1_0_S128x256 : S256x128.Transposes [1, 0] S128x256
  slices_S128x256_o0_0_S128x64 : S128x256.Slices ![0, 0] S128x64
  shapeCasts_S128x64_S1x128x64 : S128x64.ShapeCasts S1x128x64
  shapeCasts_S128x64_S128x1x64 : S128x64.ShapeCasts S128x1x64
  broadcasts_S1x128x64_S128x128x64 : S1x128x64.Broadcasts S128x128x64
  broadcasts_S128x1x64_S128x128x64 : S128x1x64.Broadcasts S128x128x64
  reduces_S128x128x64_S128x128 : S128x128x64.Reduces [2] S128x128
  slices_S128x256_o0_64_S128x64 : S128x256.Slices ![0, 64] S128x64
  slices_S128x256_o0_128_S128x64 : S128x256.Slices ![0, 128] S128x64
  slices_S128x256_o0_192_S128x64 : S128x256.Slices ![0, 192] S128x64
  transposes_S384x128_p1_0_S128x384 : S384x128.Transposes [1, 0] S128x384
  broadcasts_S1x384_S128x384 : S1x384.Broadcasts S128x384
  slices_S128x384_o0_0_S128x128 : S128x384.Slices ![0, 0] S128x128
  slices_S128x384_o0_128_S128x128 : S128x384.Slices ![0, 128] S128x128
  slices_S128x384_o0_256_S128x128 : S128x384.Slices ![0, 256] S128x128
  shapeCasts_S128x128_S1x128x128 : S128x128.ShapeCasts S1x128x128
  dot_S128x128_S128x128_S128x128_1_0_0_1_n_n_wf : DotDims.WF S128x128 S128x128 S128x128 [1] [0] [0] [1] [] []
  dot_S256x128_S128x128_S256x128_1_0_0_1_n_n_wf : DotDims.WF S256x128 S128x128 S256x128 [1] [0] [0] [1] [] []
  dot_S128x128_S128x384_S128x384_1_0_0_1_n_n_wf : DotDims.WF S128x128 S128x384 S128x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S8x256x128.size a
  hwx0_0 : ∀ i : grid0.Coords, EltTy.bits .f32 = 32 ∨ (Rect.block (s := S8x256x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S8x256x128.size a
  hwx0_1 : ∀ i : grid0.Coords, EltTy.bits .f32 = 32 ∨ (Rect.block (s := S8x256x128) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S8x256x256.size a
  hwx0_2 : ∀ i : grid0.Coords, EltTy.bits .f32 = 32 ∨ (Rect.block (s := S8x256x256) S1x128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x128.size a ≤ S384x128.size a
  hwx0_7 : ∀ i : grid0.Coords, EltTy.bits .f32 = 32 ∨ (Rect.block (s := S384x128) S384x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384x128.size a ≤ S384x128.size a
  hwx0_8 : ∀ i : grid0.Coords, EltTy.bits .f32 = 32 ∨ (Rect.block (s := S384x128) S384x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .f32 = 32 ∨ (Rect.block (s := S1x384) S1x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x384.size a ≤ S1x384.size a
  hwx0_10 : ∀ i : grid0.Coords, EltTy.bits .f32 = 32 ∨ (Rect.block (s := S1x384) S1x384.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x128.size a ≤ S8x256x128.size a
  hwx0_11 : ∀ i : grid0.Coords, EltTy.bits .f32 = 32 ∨ (Rect.block (s := S8x256x128) S1x128x128.size (cc0_transform_11 i) (hinb0_11 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S128x128_S128x384_S128x384_1_0_0_1_n_n : DotDims S128x128 S128x384 S128x384 where
  lhsContracting := [1]
  rhsContracting := [0]
  lhsNonContracting := [0]
  rhsNonContracting := [1]
  lhsBatch := []
  rhsBatch := []
  wf := dot_S128x128_S128x384_S128x384_1_0_0_1_n_n_wf

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S384x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S384x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x256x128 : Shape := ⟨3, ![8, 256, 128]⟩
abbrev S8x256x256 : Shape := ⟨3, ![8, 256, 256]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1x1x128 : Shape := ⟨3, ![1, 1, 128]⟩
abbrev S8x1x256x128 : Shape := ⟨4, ![8, 1, 256, 128]⟩
abbrev S8x256x256x1 : Shape := ⟨4, ![8, 256, 256, 1]⟩
abbrev S8x256x256x128 : Shape := ⟨4, ![8, 256, 256, 128]⟩
abbrev S_ : Shape := ⟨0, ![]⟩
abbrev S2048x128 : Shape := ⟨2, ![2048, 128]⟩
abbrev S128x384 : Shape := ⟨2, ![128, 384]⟩
abbrev S2048x384 : Shape := ⟨2, ![2048, 384]⟩
abbrev S1x384 : Shape := ⟨2, ![1, 384]⟩

abbrev nBuf : Space → Nat
  | .hbm => 76
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S8x256x128, .f32⟩
  | .hbm, ⟨2, _⟩ => ⟨S8x256x256, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S384x128, .f32⟩
  | .hbm, ⟨9, _⟩ => ⟨S384, .f32⟩
  | .hbm, ⟨10, _⟩ => ⟨S384, .f32⟩
  | .hbm, ⟨11, _⟩ => ⟨S8x256x128, .f32⟩
  | .hbm, ⟨12, _⟩ => ⟨S1x1x128, .f32⟩
  | .hbm, ⟨13, _⟩ => ⟨S8x256x128, .f32⟩
  | .hbm, ⟨14, _⟩ => ⟨S8x256x128, .f32⟩
  | .hbm, ⟨15, _⟩ => ⟨S8x256x128, .f32⟩
  | .hbm, ⟨16, _⟩ => ⟨S1x1x128, .f32⟩
  | .hbm, ⟨17, _⟩ => ⟨S8x256x128, .f32⟩
  | .hbm, ⟨18, _⟩ => ⟨S8x256x128, .f32⟩
  | .hbm, ⟨19, _⟩ => ⟨S8x1x256x128, .f32⟩
  | .hbm, ⟨20, _⟩ => ⟨S8x256x256x1, .f32⟩
  | .hbm, ⟨21, _⟩ => ⟨S8x256x256x128, .f32⟩
  | .hbm, ⟨22, _⟩ => ⟨S8x256x256x128, .f32⟩
  | .hbm, ⟨23, _⟩ => ⟨S8x256x256x128, .f32⟩
  | .hbm, ⟨24, _⟩ => ⟨S_, .f32⟩
  | .hbm, ⟨25, _⟩ => ⟨S8x256x128, .f32⟩
  | .hbm, ⟨26, _⟩ => ⟨S8x256x128, .f32⟩
  | .hbm, ⟨27, _⟩ => ⟨S_, .f32⟩
  | .hbm, ⟨28, _⟩ => ⟨S8x256x128, .f32⟩
  | .hbm, ⟨29, _⟩ => ⟨S8x256x128, .f32⟩
  | .hbm, ⟨30, _⟩ => ⟨S2048x128, .f32⟩
  | .hbm, ⟨31, _⟩ => ⟨S2048x128, .f32⟩
  | .hbm, ⟨32, _⟩ => ⟨S128x384, .f32⟩
  | .hbm, ⟨33, _⟩ => ⟨S2048x384, .f32⟩
  | .hbm, ⟨34, _⟩ => ⟨S1x384, .f32⟩
  | .hbm, ⟨35, _⟩ => ⟨S2048x384, .f32⟩
  | .hbm, ⟨36, _⟩ => ⟨S2048x384, .f32⟩
  | .hbm, ⟨37, _⟩ => ⟨S128x384, .f32⟩
  | .hbm, ⟨38, _⟩ => ⟨S2048x384, .f32⟩
  | .hbm, ⟨39, _⟩ => ⟨S1x384, .f32⟩
  | .hbm, ⟨40, _⟩ => ⟨S2048x384, .f32⟩
  | .hbm, ⟨41, _⟩ => ⟨S2048x384, .f32⟩
  | .hbm, ⟨42, _⟩ => ⟨S2048x128, .f32⟩
  | .hbm, ⟨43, _⟩ => ⟨S2048x128, .f32⟩
  | .hbm, ⟨44, _⟩ => ⟨S2048x128, .f32⟩
  | .hbm, ⟨45, _⟩ => ⟨S2048x128, .f32⟩
  | .hbm, ⟨46, _⟩ => ⟨S2048x128, .f32⟩
  | .hbm, ⟨47, _⟩ => ⟨S2048x128, .f32⟩
  | .hbm, ⟨48, _⟩ => ⟨S2048x128, .f32⟩
  | .hbm, ⟨49, _⟩ => ⟨S2048x128, .f32⟩
  | .hbm, ⟨50, _⟩ => ⟨S2048x128, .f32⟩
  | .hbm, ⟨51, _⟩ => ⟨S_, .f32⟩
  | .hbm, ⟨52, _⟩ => ⟨S2048x128, .f32⟩
  | .hbm, ⟨53, _⟩ => ⟨S2048x128, .f32⟩
  | .hbm, ⟨54, _⟩ => ⟨S_, .f32⟩
  | .hbm, ⟨55, _⟩ => ⟨S2048x128, .f32⟩
  | .hbm, ⟨56, _⟩ => ⟨S2048x128, .f32⟩
  | .hbm, ⟨57, _⟩ => ⟨S2048x128, .f32⟩
  | .hbm, ⟨58, _⟩ => ⟨S2048x128, .f32⟩
  | .hbm, ⟨59, _⟩ => ⟨S2048x128, .f32⟩
  | .hbm, ⟨60, _⟩ => ⟨S_, .f32⟩
  | .hbm, ⟨61, _⟩ => ⟨S2048x128, .f32⟩
  | .hbm, ⟨62, _⟩ => ⟨S2048x128, .f32⟩
  | .hbm, ⟨63, _⟩ => ⟨S_, .f32⟩
  | .hbm, ⟨64, _⟩ => ⟨S2048x128, .f32⟩
  | .hbm, ⟨65, _⟩ => ⟨S2048x128, .f32⟩
  | .hbm, ⟨66, _⟩ => ⟨S2048x128, .f32⟩
  | .hbm, ⟨67, _⟩ => ⟨S2048x128, .f32⟩
  | .hbm, ⟨68, _⟩ => ⟨S2048x128, .f32⟩
  | .hbm, ⟨69, _⟩ => ⟨S_, .f32⟩
  | .hbm, ⟨70, _⟩ => ⟨S2048x128, .f32⟩
  | .hbm, ⟨71, _⟩ => ⟨S2048x128, .f32⟩
  | .hbm, ⟨72, _⟩ => ⟨S2048x128, .f32⟩
  | .hbm, ⟨73, _⟩ => ⟨S2048x128, .f32⟩
  | .hbm, ⟨74, _⟩ => ⟨S2048x128, .f32⟩
  | .hbm, ⟨75, _⟩ => ⟨S8x256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_0 : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_2 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_4 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x256x128_0_1_2 : S1x1x128.BroadcastsInDim S8x256x128 (![0, 1, 2] : Fin 3 → Fin S8x256x128.rank)
  bcast_S8x256x128_S8x1x256x128_0_2_3 : S8x256x128.BroadcastsInDim S8x1x256x128 (![0, 2, 3] : Fin 3 → Fin S8x1x256x128.rank)
  bcast_S8x256x256_S8x256x256x1_0_1_2 : S8x256x256.BroadcastsInDim S8x256x256x1 (![0, 1, 2] : Fin 3 → Fin S8x256x256x1.rank)
  bcast_S8x1x256x128_S8x256x256x128_0_1_2_3 : S8x1x256x128.BroadcastsInDim S8x256x256x128 (![0, 1, 2, 3] : Fin 4 → Fin S8x256x256x128.rank)
  bcast_S8x256x256x1_S8x256x256x128_0_1_2_3 : S8x256x256x1.BroadcastsInDim S8x256x256x128 (![0, 1, 2, 3] : Fin 4 → Fin S8x256x256x128.rank)
  reducesTo_S8x256x256x128_S8x256x128_d2 : S8x256x256x128.ReducesTo [2] S8x256x128
  h_S_ : 0 < S_.numel
  bcast_S_S8x256x128 : S_.BroadcastsInDim S8x256x128 (![] : Fin 0 → Fin S8x256x128.rank)
  shapeCasts_S8x256x128_S2048x128 : S8x256x128.ShapeCasts S2048x128
  transposes_S384x128_S128x384_1_0 : S384x128.Transposes [1, 0] S128x384
  bcast_S384_S1x384_1 : S384.BroadcastsInDim S1x384 (![1] : Fin 1 → Fin S1x384.rank)
  bcast_S1x384_S2048x384_0_1 : S1x384.BroadcastsInDim S2048x384 (![0, 1] : Fin 2 → Fin S2048x384.rank)
  slices_S2048x384_S2048x128_0_0 : S2048x384.Slices ![0, 0] S2048x128
  slices_S2048x384_S2048x128_0_128 : S2048x384.Slices ![0, 128] S2048x128
  slices_S2048x384_S2048x128_0_256 : S2048x384.Slices ![0, 256] S2048x128
  bcast_S_S2048x128 : S_.BroadcastsInDim S2048x128 (![] : Fin 0 → Fin S2048x128.rank)
  shapeCasts_S2048x128_S8x256x128 : S2048x128.ShapeCasts S8x256x128
  dot_S8x256x128_S128x128_S8x256x128_2_1_01_0_n_n_wf : DotDims.WF S8x256x128 S128x128 S8x256x128 [2] [1] [0, 1] [0] [] []
  dot_S2048x128_S128x384_S2048x384_1_0_0_1_n_n_wf : DotDims.WF S2048x128 S128x384 S2048x384 [1] [0] [0] [1] [] []

variable [Facts₀]

def dot_S8x256x128_S128x128_S8x256x128_2_1_01_0_n_n : DotDims S8x256x128 S128x128 S8x256x128 where
  lhsContracting := [2]
  rhsContracting := [1]
  lhsNonContracting := [0, 1]
  rhsNonContracting := [0]
  lhsBatch := []
  rhsBatch := []
  wf := dot_S8x256x128_S128x128_S8x256x128_2_1_01_0_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf

class Facts : Prop extends Facts₀ where

variable [Facts]
-- ==== Proof.Cell.lean ====
/-
  The message-passing cell of this certificate, as mathematics over the extended reals.

  A node n of graph b holds a state row x1[b, n, ·] of 128 features.  Its 256 possible neighbours j hold rows
  x2[b, j, ·], and mask[b, n, j] says how much of neighbour j it hears.  The cell computes, feature by feature,

      m1[g]  = Σ_f x1[f] · Ww[g, f] + Wb[g]                      (the node's own affine map)
      msg[j, g] = Σ_f x2[j, f] · Mw[g, f] + Mb[g]                (each neighbour's message)
      m2[g]  = max over j of msg[j, g] · mask[j], started at −∞   (the masked max-pool)
      x[g]   = max (m1[g] + m2[g], 0)
      gi[c]  = Σ_g x[g] · Gi[c, g] + bi[c],   gh[c] = Σ_g x1[g] · Gh[c, g] + bh[c]     (c < 384: three gates of 128)
      r = σ(gi[g] + gh[g]),  z = σ(gi[128+g] + gh[128+g]),  n = tanh(gi[256+g] + r · gh[256+g]),
      out[g] = (1 − z) · n + z · x1[g].

  −∞, 0 and 1 are kept as the float words the two programs share (0xFF800000, 0x00000000, 0x3F800000): the same word on
  both sides is never evaluated.  The one law proved here is that a running maximum may be taken in four chunks of 64
  neighbours, each started again at the same value: max is associative, commutative and idempotent, so the chunked
  maximum has the same upper bounds as the maximum over all 256.  No law here needs an entry to be finite.
-/
import Idealize.ShloMosaic.PureOps.Ideal
import Idealize.ShloMosaic.Lib.ValueIdx

noncomputable section

namespace Cert.Cell

open Idealize.ShloMosaic Idealize.ShloMosaic.ValueIdx

/-- An affine form: the inner product of the row `x` with the weight row `w`, plus the bias `b`. -/
def lin {K : ℕ} (x w : Fin K → EReal) (b : EReal) : EReal := (∑ f : Fin K, x f * w f) + b

/-- The running maximum of the entries of `f`, started at `b`. -/
def pool (b : EReal) {N : ℕ} (f : Fin N → EReal) : EReal := (Finset.univ : Finset (Fin N)).fold max b f

/-- A running maximum is below `z` exactly when its start and every entry are. -/
theorem pool_le_iff (b : EReal) {N : ℕ} (f : Fin N → EReal) (z : EReal) : pool b f ≤ z ↔ b ≤ z ∧ ∀ j, f j ≤ z := by
  unfold pool
  rw [Finset.fold_max_le]
  simp

/-- The 64 entries of a family of 256 from position `o` on. -/
def seg (f : Fin 256 → EReal) (o : ℕ) (ho : o + 64 ≤ 256) : Fin 64 → EReal :=
  fun j => f ⟨o + j.val, by have := j.isLt; omega⟩

/-- An entry whose position lies in the chunk starting at `o` is bounded as soon as the chunk's entries are. -/
theorem le_of_seg_le (f : Fin 256 → EReal) (z : EReal) (o : ℕ) (ho : o + 64 ≤ 256)
    (h : ∀ j : Fin 64, seg f o ho j ≤ z) (j : Fin 256) (h1 : o ≤ j.val) (h2 : j.val < o + 64) : f j ≤ z := by
  have key : ∀ a : Fin 256, a.val = j.val → f a ≤ z → f j ≤ z := fun a ha h => by rwa [Fin.ext ha] at h
  exact key _ (by show o + (j.val - o) = j.val; omega) (h ⟨j.val - o, by omega⟩)

/-- THE CHUNKED MAXIMUM: four running maxima over consecutive chunks of 64, each started at `b` and folded into one
    another, are the running maximum over all 256 entries. -/
theorem pool_chunks (b : EReal) (f : Fin 256 → EReal) :
    max (max (max (max b (pool b (seg f 0 (by omega)))) (pool b (seg f 64 (by omega)))) (pool b (seg f 128 (by omega))))
      (pool b (seg f 192 (by omega))) = pool b f := by
  refine eq_of_forall_ge_iff fun z => ?_
  simp only [max_le_iff, pool_le_iff]
  constructor
  · rintro ⟨⟨⟨⟨hb, -, h0⟩, -, h1⟩, -, h2⟩, -, h3⟩
    refine ⟨hb, fun j => ?_⟩
    have hj := j.isLt
    by_cases c0 : j.val < 64
    · exact le_of_seg_le f z 0 (by omega) h0 j (by omega) (by omega)
    by_cases c1 : j.val < 128
    · exact le_of_seg_le f z 64 (by omega) h1 j (by omega) (by omega)
    by_cases c2 : j.val < 192
    · exact le_of_seg_le f z 128 (by omega) h2 j (by omega) (by omega)
    · exact le_of_seg_le f z 192 (by omega) h3 j (by omega) (by omega)
  · rintro ⟨hb, h⟩
    exact ⟨⟨⟨⟨hb, hb, fun j => h _⟩, hb, fun j => h _⟩, hb, fun j => h _⟩, hb, fun j => h _⟩

/-- The hidden row fed to the gates: the node's own affine map plus the masked max-pool of its neighbours' messages,
    clamped below at zero. -/
def hidden (x1 : Fin 128 → EReal) (X2 : Fin 256 → Fin 128 → EReal) (mask : Fin 256 → EReal)
    (Ww : Fin 128 → Fin 128 → EReal) (Wb : Fin 128 → EReal) (Mw : Fin 128 → Fin 128 → EReal) (Mb : Fin 128 → EReal)
    (g : Fin 128) : EReal :=
  max (lin x1 (Ww g) (Wb g)
        + pool (Ideal.ofBits .f32 0xFF800000#32) (fun j => lin (X2 j) (Mw g) (Mb g) * mask j))
    (Ideal.ofBits .f32 0x00000000#32)

/-- The three gate positions of feature `g` among the 384 gate outputs. -/
def lo (g : Fin 128) : Fin 384 := ⟨g.val, by have := g.isLt; omega⟩
def mid (g : Fin 128) : Fin 384 := ⟨g.val + 128, by have := g.isLt; omega⟩
def hi (g : Fin 128) : Fin 384 := ⟨g.val + 256, by have := g.isLt; omega⟩

/-- The gated update of one feature from the input-side and state-side gate rows and the old state `h`. -/
def gru (gi gh : Fin 384 → EReal) (h : EReal) (g : Fin 128) : EReal :=
  (Ideal.ofBits .f32 0x3F800000#32 - Ideal.logistic (gi (mid g) + gh (mid g)))
      * Ideal.tanh (gi (hi g) + Ideal.logistic (gi (lo g) + gh (lo g)) * gh (hi g))
    + Ideal.logistic (gi (mid g) + gh (mid g)) * h

/-- One node's new state row, feature by feature. -/
def row (x1 : Fin 128 → EReal) (X2 : Fin 256 → Fin 128 → EReal) (mask : Fin 256 → EReal)
    (Ww : Fin 128 → Fin 128 → EReal) (Wb : Fin 128 → EReal) (Mw : Fin 128 → Fin 128 → EReal) (Mb : Fin 128 → EReal)
    (Gi Gh : Fin 384 → Fin 128 → EReal) (bi bh : Fin 384 → EReal) (g : Fin 128) : EReal :=
  gru (fun c => lin (hidden x1 X2 mask Ww Wb Mw Mb) (Gi c) (bi c)) (fun c => lin x1 (Gh c) (bh c)) (x1 g) g

/-- THE RESULT ARRAY as one function of the eleven argument arrays, at node `n` of graph `b` and feature `g`. -/
def out (x1 x2 : (⟨3, ![8, 256, 128]⟩ : Shape).Idx → EReal) (ve : (⟨3, ![8, 256, 256]⟩ : Shape).Idx → EReal)
    (Ww : (⟨2, ![128, 128]⟩ : Shape).Idx → EReal) (Wb : (⟨1, ![128]⟩ : Shape).Idx → EReal)
    (Mw : (⟨2, ![128, 128]⟩ : Shape).Idx → EReal) (Mb : (⟨1, ![128]⟩ : Shape).Idx → EReal)
    (Gi Gh : (⟨2, ![384, 128]⟩ : Shape).Idx → EReal) (bi bh : (⟨1, ![384]⟩ : Shape).Idx → EReal)
    (b : Fin 8) (n : Fin 256) (g : Fin 128) : EReal :=
  row (fun f => x1 (ix3 b n f)) (fun j f => x2 (ix3 b j f)) (fun j => ve (ix3 b n j))
    (fun g f => Ww (ix2 g f)) (fun g => Wb (ix1 g)) (fun g f => Mw (ix2 g f)) (fun g => Mb (ix1 g))
    (fun c g => Gi (ix2 c g)) (fun c g => Gh (ix2 c g)) (fun c => bi (ix1 c)) (fun c => bh (ix1 c)) g

/-- The same, at a multi-index. -/
def G (x1 x2 : (⟨3, ![8, 256, 128]⟩ : Shape).Idx → EReal) (ve : (⟨3, ![8, 256, 256]⟩ : Shape).Idx → EReal)
    (Ww : (⟨2, ![128, 128]⟩ : Shape).Idx → EReal) (Wb : (⟨1, ![128]⟩ : Shape).Idx → EReal)
    (Mw : (⟨2, ![128, 128]⟩ : Shape).Idx → EReal) (Mb : (⟨1, ![128]⟩ : Shape).Idx → EReal)
    (Gi Gh : (⟨2, ![384, 128]⟩ : Shape).Idx → EReal) (bi bh : (⟨1, ![384]⟩ : Shape).Idx → EReal) :
    (⟨3, ![8, 256, 128]⟩ : Shape).Idx → EReal :=
  fun i => out x1 x2 ve Ww Wb Mw Mb Gi Gh bi bh (i 0) (i 1) (i 2)

end Cert.Cell

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibAffineRows.lean ====
/-
  A reusable lemma: an affine layer x · Wᵀ + b on the matrix unit, read at an entry.

  A kernel that holds its weight matrix as [N, K] (one row per output feature) transposes it, multiplies the [M, K]
  block of rows by it into the zero splat, and adds the [1, N] bias row spread over the M rows.  Over the extended
  reals, at the entry (p, q),

      (x · Wᵀ + b)[p, q] = Σ_{k < K} x[p, k] · W[q, k] + b[0, q].

  Generic in the extents M, K, N; the dimension record may be any one equal to the plain M×K by K×N record.
-/
import Idealize.ShloMosaic.Lib.ValueLayout
import proofs.«159456_j4861902979305_2_alg».proof.Proof.LibMatmulNN

noncomputable section

namespace Cert.AffineRows

open Idealize.ShloMosaic Idealize.ShloMosaic.ValueIdx

variable {M K N : ℕ}

/-- The affine layer at entry (p, q): the inner product of row p of the block with row q of the weights, plus the bias
    of feature q. -/
theorem affine_apply (D : DotDims ⟨2, ![M, K]⟩ ⟨2, ![K, N]⟩ ⟨2, ![M, N]⟩) (hD : D = DotDims.plain M K N)
    (prec : Option ContractPrecision)
    (A : FVec Ideal ⟨2, ![M, K]⟩ .f32) (W : FVec Ideal ⟨2, ![N, K]⟩ .f32) (B : FVec Ideal ⟨2, ![1, N]⟩ .f32)
    (ht : (⟨2, ![N, K]⟩ : Shape).Transposes [1, 0] ⟨2, ![K, N]⟩)
    (hb : (⟨2, ![1, N]⟩ : Shape).Broadcasts ⟨2, ![M, N]⟩) (p : Fin M) (q : Fin N) :
    addf (matmul D prec A (transpose ⟨2, ![K, N]⟩ [1, 0] W ht) (constant (F := Ideal) ⟨2, ![M, N]⟩ .f32 0x00000000#32))
        (broadcastTo ⟨2, ![M, N]⟩ B hb) (ix2 p q)
      = (∑ k : Fin K, A (ix2 p k) * W (ix2 q k)) + B (ix2 (0 : Fin 1) q) := by
  show matmul D prec A (transpose ⟨2, ![K, N]⟩ [1, 0] W ht) (constant (F := Ideal) ⟨2, ![M, N]⟩ .f32 0x00000000#32) (ix2 p q)
      + broadcastTo ⟨2, ![M, N]⟩ B hb (ix2 p q) = _
  rw [broadcastTo_1b_ab_apply]
  refine congrArg (· + B (ix2 (0 : Fin 1) q)) ?_
  refine (Cert.MatmulNN.matmul_zero_apply D hD prec A _ p q).trans ?_
  exact Finset.sum_congr rfl fun k _ => congrArg (A (ix2 p k) * ·) (transpose_ix2_apply W ht k q)

end Cert.AffineRows

end
-- ==== Proof.LibLastAxis.lean ====
/-
  Reusable lemmas: reductions along the LAST axis of an [a, b, c] array, read at an entry over the extended reals.

  A sum over the last axis, from the zero accumulator, is at (i, k) the sum over j of the entries (i, k, j); a running
  maximum along it is the fold of max, from the accumulator's value, over those entries. Generic in the extents.
-/
import Idealize.ShloMosaic.Lib.ValueIdx
import Idealize.ShloMosaic.PureOps.Ideal.Laws

noncomputable section

namespace Cert.LastAxis

open Idealize.ShloMosaic Idealize.ShloMosaic.ValueIdx

variable {a b c : ℕ}

/-- The source index of a reduction over the last axis: the pair (i, k) with the coordinate j appended is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- A sum over the last axis of an [a, b, c] array, from the zero accumulator, is at (i, k) the sum over j of the
    entries (i, k, j). -/
theorem lastSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

/-- A running maximum along the last axis of an [a, b, c] array is at (i, k) the fold of max, from the accumulator's
    value, over the entries (i, k, j). -/
theorem lastMax_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (i : Fin a) (k : Fin b) :
    multiReduction .maximumf [(2 : Fin 3)] ⟨2, ![a, b]⟩ src acc h hφ hacc (ix2 i k)
      = (Finset.univ : Finset (Fin c)).fold max (Ideal.ofBits φ acc) (fun j => src (ix3 i k j)) := by
  refine (Ideal.multiReduction_maximumf_single src acc h hφ hacc (ix2 i k)).trans ?_
  have e : (src ∘ h.lift (ix2 i k)) = fun j => src (ix3 i k j) := funext fun j => congrArg src (lift_last h i k j)
  show (Finset.univ : Finset (Fin c)).fold max (Ideal.ofBits φ acc) (src ∘ h.lift (ix2 i k)) = _
  rw [e]
  rfl

end Cert.LastAxis

end
-- ==== Proof.LibPairLayout.lean ====
/-
  Reusable lemmas: the layout operations of a pairwise (outer) combination of two row blocks, read at an entry.

  A kernel that combines every row i of an [a, c] block with every row k of a [b, c] block builds the [a, b, c] array
  of pairs by inserting a unit axis ([a, c] → [a, 1, c], [b, c] → [1, b, c]) and broadcasting along it; flattens the
  pairs to the rows r = i·b + k of an [a·b, c] matrix for a matrix product and back; lays a [c] vector along every pair
  ([c] → [1, 1, c] → [a, b, c]); reads a [c, 1] column as a [c] vector; and sums over the last axis.  Each lemma reads
  one such operation at an entry written by its coordinates.  Generic in the extents and in the element type.
-/
import Idealize.ShloMosaic.Lib.Pipeline.Value
import Idealize.ShloMosaic.Lib.ValueIdx
import Idealize.ShloMosaic.PureOps.Ideal.Laws

noncomputable section

namespace Cert.PairLayout

open Idealize.ShloMosaic Idealize.ShloMosaic.ValueIdx

variable {α : Type} {a b c n : ℕ}

/-- An [a, c] array viewed [a, 1, c] reads, at (i, u, j), the operand at (i, j). -/
theorem shapeCast_ac_a1c_apply (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An [a, 1, c] array broadcast to [a, b, c] reads, at (i, k, j), the operand at (i, 0, j). -/
theorem broadcastTo_a1c_abc_apply (x : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A [1, b, c] array broadcast to [a, b, c] reads, at (i, k, j), the operand at (0, k, j). -/
theorem broadcastTo_1bc_abc_apply (x : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A [1, 1, c] array broadcast to [a, b, c] reads, at (i, k, j), the operand at (0, 0, j). -/
theorem broadcastTo_11c_abc_apply (x : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- A [c] vector viewed [1, 1, c] reads, at (u, v, j), the operand at j. -/
theorem shapeCast_c_11c_apply (x : (⟨1, ![c]⟩ : Shape).Idx → α)
    (h : (⟨1, ![c]⟩ : Shape).ShapeCasts ⟨3, ![1, 1, c]⟩) (u v : Fin 1) (j : Fin c) :
    shapeCast ⟨3, ![1, 1, c]⟩ x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * c + j.val
    simp only [hu, hv, Nat.zero_mul, Nat.zero_add, Nat.mul_one, Nat.add_zero])

/-- A [c, 1] column viewed as a [c] vector reads, at j, the operand at (j, 0). -/
theorem shapeCast_c1_c_apply (x : (⟨2, ![c, 1]⟩ : Shape).Idx → α)
    (h : (⟨2, ![c, 1]⟩ : Shape).ShapeCasts ⟨1, ![c]⟩) (j : Fin c) :
    shapeCast ⟨1, ![c]⟩ x h (ix1 j) = x (ix2 j (0 : Fin 1)) :=
  shapeCast_apply x h _ _ (by
    rw [Shape.rowMajor_val_two, Shape.rowMajor_val_one]
    show j.val * 1 + 0 = j.val
    rw [Nat.mul_one, Nat.add_zero])

/-- The pairs flattened: an [a, b, c] array viewed as the [n, c] matrix (n = a·b) reads, at row r = i·b + k and
    column j, the operand at (i, k, j). -/
theorem shapeCast_abc_nc_apply (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) :
    shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- And back: an [n, c] matrix (n = a·b) viewed [a, b, c] reads, at (i, k, j), the operand at row r = i·b + k. -/
theorem shapeCast_nc_abc_apply (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-- The source index of a sum over the last axis: the pair (i, k) with the coordinate j inserted is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- Over the extended reals a sum over the last axis of an [a, b, c] array, from the zero accumulator, is at the pair
    (i, k) the sum over j of the entries (i, k, j). -/
theorem laneSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

end Cert.PairLayout

end
-- ==== Proof.LibMaskedChunk.lean ====
/-
  A reusable lemma: the array of masked messages of one window of neighbours, read at an entry.

  A kernel that pools, for every row p of an [a, n] mask block and every feature g of a [b, n] message block (one row
  per feature, one column per neighbour), the products message[g, j] · mask[p, j] over a window of c neighbours
  starting at column o, builds the [a, b, c] array of products by slicing both blocks at the window, inserting a unit
  axis ([b, c] → [1, b, c], [a, c] → [a, 1, c]), broadcasting and multiplying.  Over the extended reals its entry
  (p, g, j) is

      message[g, o + j] · mask[p, o + j].

  Generic in the extents and in the window's offset.
-/
import Idealize.ShloMosaic.Lib.ValueLayout
import proofs.«159456_j4861902979305_2_alg».proof.Proof.LibPairLayout

noncomputable section

namespace Cert.MaskedChunk

open Idealize.ShloMosaic Idealize.ShloMosaic.ValueIdx

variable {a b c n : ℕ}

/-- The product array of the window of c neighbours from column o, at row p, feature g and neighbour j. -/
theorem prod_apply (o : ℕ) (hn : o + c ≤ n) (A : FVec Ideal ⟨2, ![b, n]⟩ .f32) (B : FVec Ideal ⟨2, ![a, n]⟩ .f32)
    (hsA : (⟨2, ![b, n]⟩ : Shape).Slices ![0, o] ⟨2, ![b, c]⟩) (hsB : (⟨2, ![a, n]⟩ : Shape).Slices ![0, o] ⟨2, ![a, c]⟩)
    (hcA : (⟨2, ![b, c]⟩ : Shape).ShapeCasts ⟨3, ![1, b, c]⟩) (hcB : (⟨2, ![a, c]⟩ : Shape).ShapeCasts ⟨3, ![a, 1, c]⟩)
    (hbA : (⟨3, ![1, b, c]⟩ : Shape).Broadcasts ⟨3, ![a, b, c]⟩) (hbB : (⟨3, ![a, 1, c]⟩ : Shape).Broadcasts ⟨3, ![a, b, c]⟩)
    (p : Fin a) (g : Fin b) (j : Fin c) :
    mulf (broadcastTo ⟨3, ![a, b, c]⟩ (shapeCast ⟨3, ![1, b, c]⟩ (extractStridedSlice ⟨2, ![b, c]⟩ ![0, o] A hsA) hcA) hbA)
        (broadcastTo ⟨3, ![a, b, c]⟩ (shapeCast ⟨3, ![a, 1, c]⟩ (extractStridedSlice ⟨2, ![a, c]⟩ ![0, o] B hsB) hcB) hbB)
        (ix3 p g j)
      = A (ix2 g ⟨o + j.val, by have := j.isLt; omega⟩) * B (ix2 p ⟨o + j.val, by have := j.isLt; omega⟩) := by
  refine (mulf_apply _ _ (ix3 p g j)).trans (congrArg₂ (· * ·) ?_ ?_)
  · refine (Cert.PairLayout.broadcastTo_1bc_abc_apply _ hbA p g j).trans ?_
    refine (shapeCast_ab_1ab_apply _ hcA (0 : Fin 1) g j).trans ?_
    exact slice2_axis1_apply o A hsA g j ⟨o + j.val, by have := j.isLt; omega⟩ rfl
  · refine (Cert.PairLayout.broadcastTo_a1c_abc_apply _ hbB p g j).trans ?_
    refine (Cert.PairLayout.shapeCast_ac_a1c_apply _ hcB p (0 : Fin 1) j).trans ?_
    exact slice2_axis1_apply o B hsB p j ⟨o + j.val, by have := j.isLt; omega⟩ rfl

end Cert.MaskedChunk

end
-- ==== Proof.LibIndexExt.lean ====
/-
  Two multi-indices of a literal-rank shape are equal as soon as their coordinates are equal as natural numbers:
  the form in which an index computed by a chain of layout operations is compared with one written by coordinates.
-/
import Idealize.ShloMosaic.Lib.ValueIdx

namespace Cert.IndexExt

open Idealize.ShloMosaic

/-- Rank 1. -/
theorem ext1 {n0 : Nat} {i j : (⟨1, ![n0]⟩ : Shape).Idx} (h0 : (i 0).val = (j 0).val) : i = j :=
  funext fun a => Fin.ext (by match a with | ⟨0, _⟩ => exact h0)

/-- Rank 2. -/
theorem ext2 {n0 n1 : Nat} {i j : (⟨2, ![n0, n1]⟩ : Shape).Idx} (h0 : (i 0).val = (j 0).val)
    (h1 : (i 1).val = (j 1).val) : i = j :=
  funext fun a => Fin.ext (by match a with | ⟨0, _⟩ => exact h0 | ⟨1, _⟩ => exact h1)

/-- Rank 3. -/
theorem ext3 {n0 n1 n2 : Nat} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- Rank 4. -/
theorem ext4 {n0 n1 n2 n3 : Nat} {i j : (⟨4, ![n0, n1, n2, n3]⟩ : Shape).Idx} (h0 : (i 0).val = (j 0).val)
    (h1 : (i 1).val = (j 1).val) (h2 : (i 2).val = (j 2).val) (h3 : (i 3).val = (j 3).val) : i = j :=
  funext fun a => Fin.ext (by
    match a with | ⟨0, _⟩ => exact h0 | ⟨1, _⟩ => exact h1 | ⟨2, _⟩ => exact h2 | ⟨3, _⟩ => exact h3)

end Cert.IndexExt
-- ==== Proof.KernelCell.lean ====
/-
  What the kernel's body leaves at one entry of its output block, over the extended reals.

  At a grid point the body holds a block of 128 node rows x1 (as [1, 128, 128]), all 256 neighbour rows x2 of the same
  graph ([1, 256, 128]), the 128 × 256 block of the mask, and the weights whole.  It computes the node's own affine map
  (x1 · Wwᵀ + Wb), the neighbours' messages transposed to one row per feature ((x2 · Mwᵀ + Mb)ᵀ), the masked maximum
  over the neighbours as a running maximum over four windows of 64 columns each started at −∞, clamps the sum at zero,
  and feeds the result and x1 through the two gate layers (· Giᵀ + bi, · Ghᵀ + bh) and the gated update.

  Each lemma reads one of the body's named values at an entry written by its coordinates; the last one says that entry
  (0, p, g) of what the body stores is the cell's row function (`Cell.row`) of row p of the blocks.  The chunked running
  maximum is joined to the maximum over all 256 neighbours by `Cell.pool_chunks`.
-/
import proofs.«159456_j4861902979305_2_alg».proof.Proof.Gen.KernelIdeal.Value
import Idealize.ShloMosaic.Lib.ValueLayout
import proofs.«159456_j4861902979305_2_alg».proof.Proof.Cell
import proofs.«159456_j4861902979305_2_alg».proof.Proof.LibAffineRows
import proofs.«159456_j4861902979305_2_alg».proof.Proof.LibLastAxis
import proofs.«159456_j4861902979305_2_alg».proof.Proof.LibMaskedChunk
import proofs.«159456_j4861902979305_2_alg».proof.Proof.LibIndexExt

noncomputable section

namespace Cert.KernelCell

open Idealize.ShloMosaic Idealize.ShloMosaic.ValueIdx Cert.KernelIdeal Cert.KernelIdeal.Gen

/-- The node's own affine map at row p and feature g. -/
theorem own_apply (v0 : Vec Ideal S1x128x128 .f32) (v6 : Vec Ideal S128x128 .f32) (v7 : Vec Ideal S1x128 .f32)
    (p g : Fin 128) :
    k0_pay6 (F := Ideal) v0 v6 v7 (ix2 p g)
      = Cell.lin (fun f => v0 (ix3 (0 : Fin 1) p f)) (fun f => v6 (ix2 g f)) (v7 (ix2 (0 : Fin 1) g)) := by
  unfold k0_pay6 k0_pay2
  refine (Cert.AffineRows.affine_apply _ rfl none _ v6 _ _ _ p g).trans ?_
  unfold Cell.lin
  refine congrArg₂ (· + ·) (Finset.sum_congr rfl fun f _ => congrArg (· * v6 (ix2 g f)) ?_) ?_
  · exact shapeCast_1ab_ab_apply v0 _ p f
  · exact congrFun (shapeCast_self v7 _) _

/-- The neighbours' messages, one row per feature: at feature g and neighbour j. -/
theorem msg_apply (v2 : Vec Ideal S1x256x128 .f32) (v9 : Vec Ideal S128x128 .f32) (v10 : Vec Ideal S1x128 .f32)
    (g : Fin 128) (j : Fin 256) :
    k0_pay7 (F := Ideal) v2 v9 v10 (ix2 g j)
      = Cell.lin (fun f => v2 (ix3 (0 : Fin 1) j f)) (fun f => v9 (ix2 g f)) (v10 (ix2 (0 : Fin 1) g)) := by
  unfold k0_pay7
  refine (transpose_ix2_apply _ _ g j).trans ?_
  refine (Cert.AffineRows.affine_apply _ rfl none _ v9 _ _ _ j g).trans ?_
  unfold Cell.lin
  refine congrArg₂ (· + ·) (Finset.sum_congr rfl fun f _ => congrArg (· * v9 (ix2 g f)) ?_) ?_
  · exact shapeCast_1ab_ab_apply v2 _ j f
  · exact congrFun (shapeCast_self v10 _) _

/-- The state-side gate rows at row p and gate output c. -/
theorem stateGates_apply (v1 : FVec Ideal S128x128 .f32) (v13 : Vec Ideal S384x128 .f32) (v17 : FVec Ideal S1x384 .f32)
    (p : Fin 128) (c : Fin 384) :
    k0_pay12 (F := Ideal) v1 v13 v17 (ix2 p c)
      = Cell.lin (fun g => v1 (ix2 p g)) (fun g => v13 (ix2 c g)) (v17 (ix2 (0 : Fin 1) c)) := by
  unfold k0_pay12
  exact Cert.AffineRows.affine_apply _ rfl none v1 v13 v17 _ _ p c

/-- The masked maximum over one window of 64 neighbours from column o, at row p and feature g: the running maximum,
    from −∞, of the window's entries of message · mask. -/
theorem window_max (o : ℕ) (ho : o + 64 ≤ 256) (A B : FVec Ideal S128x256 .f32)
    (hs : S128x256.Slices ![0, o] S128x64) (p g : Fin 128) :
    multiReduction .maximumf [2] S128x128
        (mulf (broadcastTo S128x128x64 (shapeCast S1x128x64 (extractStridedSlice S128x64 ![0, o] A hs) shapeCasts_S128x64_S1x128x64) broadcasts_S1x128x64_S128x128x64)
          (broadcastTo S128x128x64 (shapeCast S128x1x64 (extractStridedSlice S128x64 ![0, o] B hs) shapeCasts_S128x64_S128x1x64) broadcasts_S128x1x64_S128x128x64))
        0xFF800000#32 reduces_S128x128x64_S128x128 (.inl rfl) rfl (ix2 p g)
      = Cell.pool (Ideal.ofBits .f32 0xFF800000#32) (Cell.seg (fun j => A (ix2 g j) * B (ix2 p j)) o ho) := by
  refine (Cert.LastAxis.lastMax_apply (φ := .f32) _ 0xFF800000#32 reduces_S128x128x64_S128x128 (.inl rfl) rfl p g).trans ?_
  refine congrArg (fun f => Finset.fold max (Ideal.ofBits .f32 0xFF800000#32) f Finset.univ) (funext fun j => ?_)
  exact Cert.MaskedChunk.prod_apply o ho A B hs hs _ _ _ _ p g j

/-- The input-side gate rows at row p and gate output c: the affine image of the hidden row, whose feature g is the
    node's own map plus the masked maximum over all 256 neighbours, clamped at zero. -/
theorem inputGates_apply (v5 : FVec Ideal S128x256 .f32) (v12 : Vec Ideal S384x128 .f32) (v15 : FVec Ideal S1x384 .f32)
    (v21 : FVec Ideal S128x128 .f32) (v26 : FVec Ideal S128x256 .f32) (p : Fin 128) (c : Fin 384) :
    k0_pay11 (F := Ideal) v5 v12 v15 v21 v26 (k0_pay8 (F := Ideal))
        (extractStridedSlice S128x64 ![0, 0] v26 slices_S128x256_o0_0_S128x64)
        (extractStridedSlice S128x64 ![0, 0] v5 slices_S128x256_o0_0_S128x64) (ix2 p c)
      = Cell.lin
          (fun g => max (v21 (ix2 p g)
              + Cell.pool (Ideal.ofBits .f32 0xFF800000#32) (fun j => v26 (ix2 g j) * v5 (ix2 p j)))
            (Ideal.ofBits .f32 0x00000000#32))
          (fun g => v12 (ix2 c g)) (v15 (ix2 (0 : Fin 1) c)) := by
  unfold k0_pay11
  refine (Cert.AffineRows.affine_apply _ rfl none _ v12 v15 _ _ p c).trans ?_
  unfold Cell.lin
  refine congrArg (· + v15 (ix2 (0 : Fin 1) c)) (Finset.sum_congr rfl fun g _ => congrArg (· * v12 (ix2 c g)) ?_)
  refine (maximumf_apply _ _ (ix2 p g)).trans (congrArg₂ max ?_ rfl)
  refine (addf_apply _ _ (ix2 p g)).trans (congrArg (v21 (ix2 p g) + ·) ?_)
  refine Eq.trans ?_ (Cell.pool_chunks (Ideal.ofBits .f32 0xFF800000#32) (fun j => v26 (ix2 g j) * v5 (ix2 p j)))
  refine (maximumf_apply _ _ (ix2 p g)).trans (congrArg₂ max ?_ ?_)
  · refine (maximumf_apply _ _ (ix2 p g)).trans (congrArg₂ max ?_ ?_)
    · refine (maximumf_apply _ _ (ix2 p g)).trans (congrArg₂ max ?_ ?_)
      · refine (maximumf_apply _ _ (ix2 p g)).trans (congrArg₂ max rfl ?_)
        exact window_max 0 (by omega) v26 v5 slices_S128x256_o0_0_S128x64 p g
      · exact window_max 64 (by omega) v26 v5 slices_S128x256_o0_64_S128x64 p g
    · exact window_max 128 (by omega) v26 v5 slices_S128x256_o0_128_S128x64 p g
  · exact window_max 192 (by omega) v26 v5 slices_S128x256_o0_192_S128x64 p g

/-! ## The stored block at an entry -/

/-- The input-side gate rows as the body computes them from its loads. -/
abbrev giBlk (P0 : Vec Ideal S1x128x256 .f32) (P1 : Vec Ideal S384x128 .f32) (P2 : Vec Ideal S1x384 .f32)
    (P3 : Vec Ideal S1x128x128 .f32) (P4 : Vec Ideal S128x128 .f32) (P5 : Vec Ideal S1x128 .f32)
    (P6 : Vec Ideal S1x256x128 .f32) (P7 : Vec Ideal S128x128 .f32) (P8 : Vec Ideal S1x128 .f32) : FVec Ideal S128x384 .f32 :=
  k0_pay11 (shapeCast S128x256 P0 shapeCasts_S1x128x256_S128x256) P1 (shapeCast S1x384 P2 shapeCasts_S1x384_S1x384)
    (k0_pay6 P3 P4 P5) (k0_pay7 P6 P7 P8) (k0_pay8 (F := Ideal))
    (extractStridedSlice S128x64 ![0, 0] (k0_pay7 P6 P7 P8) slices_S128x256_o0_0_S128x64)
    (extractStridedSlice S128x64 ![0, 0] (shapeCast S128x256 P0 shapeCasts_S1x128x256_S128x256) slices_S128x256_o0_0_S128x64)

/-- The state-side gate rows as the body computes them from its loads. -/
abbrev ghBlk (P3 : Vec Ideal S1x128x128 .f32) (P9 : Vec Ideal S384x128 .f32) (P10 : Vec Ideal S1x384 .f32) :
    FVec Ideal S128x384 .f32 :=
  k0_pay12 (shapeCast S128x128 P3 shapeCasts_S1x128x128_S128x128) P9 (shapeCast S1x384 P10 shapeCasts_S1x384_S1x384)

/-- The gated update as the body spells it — the three gates of feature g read out of the 384 gate outputs at columns
    g, 128 + g and 256 + g — is the cell's gated update of row p. -/
theorem update_apply (GI GH : FVec Ideal S128x384 .f32) (H : Vec Ideal S1x128x128 .f32) (p g : Fin 128) :
    FloatOps.addf (F := Ideal) (φ := .f32)
        (FloatOps.mulf
          (FloatOps.subf (Scalar.ofBits .f32 0x3F800000#32)
            (FloatOps.logistic (FloatOps.addf (GI (Value.ix11_0 (ix3 (0 : Fin 1) p g))) (GH (Value.ix11_1 (ix3 (0 : Fin 1) p g))))))
          (FloatOps.tanh (FloatOps.addf (GI (Value.ix11_2 (ix3 (0 : Fin 1) p g)))
            (FloatOps.mulf
              (FloatOps.logistic (FloatOps.addf (GI (Value.ix11_3 (ix3 (0 : Fin 1) p g))) (GH (Value.ix11_4 (ix3 (0 : Fin 1) p g)))))
              (GH (Value.ix11_5 (ix3 (0 : Fin 1) p g)))))))
        (FloatOps.mulf
          (FloatOps.logistic (FloatOps.addf (GI (Value.ix11_6 (ix3 (0 : Fin 1) p g))) (GH (Value.ix11_7 (ix3 (0 : Fin 1) p g)))))
          (H (Value.ix11_8 (ix3 (0 : Fin 1) p g))))
      = Cell.gru (fun c => GI (ix2 p c)) (fun c => GH (ix2 p c)) (H (ix3 (0 : Fin 1) p g)) g := by
  have i0 : Value.ix11_0 (ix3 (0 : Fin 1) p g) = ix2 p (Cell.mid g) := Cert.IndexExt.ext2 rfl rfl
  have i1 : Value.ix11_1 (ix3 (0 : Fin 1) p g) = ix2 p (Cell.mid g) := Cert.IndexExt.ext2 rfl rfl
  have i2 : Value.ix11_2 (ix3 (0 : Fin 1) p g) = ix2 p (Cell.hi g) := Cert.IndexExt.ext2 rfl rfl
  have i3 : Value.ix11_3 (ix3 (0 : Fin 1) p g) = ix2 p (Cell.lo g) := Cert.IndexExt.ext2 rfl rfl
  have i4 : Value.ix11_4 (ix3 (0 : Fin 1) p g) = ix2 p (Cell.lo g) := Cert.IndexExt.ext2 rfl rfl
  have i5 : Value.ix11_5 (ix3 (0 : Fin 1) p g) = ix2 p (Cell.hi g) := Cert.IndexExt.ext2 rfl rfl
  have i6 : Value.ix11_6 (ix3 (0 : Fin 1) p g) = ix2 p (Cell.mid g) := Cert.IndexExt.ext2 rfl rfl
  have i7 : Value.ix11_7 (ix3 (0 : Fin 1) p g) = ix2 p (Cell.mid g) := Cert.IndexExt.ext2 rfl rfl
  have i8 : Value.ix11_8 (ix3 (0 : Fin 1) p g) = ix3 (0 : Fin 1) p g := Cert.IndexExt.ext3 rfl rfl rfl
  rw [i0, i1, i2, i3, i4, i5, i6, i7, i8]
  rfl

/-- ENTRY (0, p, g) OF THE STORED BLOCK is the cell's row function of row p of the loaded blocks. -/
theorem block_apply (P0 : Vec Ideal S1x128x256 .f32) (P1 : Vec Ideal S384x128 .f32) (P2 : Vec Ideal S1x384 .f32)
    (P3 : Vec Ideal S1x128x128 .f32) (P4 : Vec Ideal S128x128 .f32) (P5 : Vec Ideal S1x128 .f32)
    (P6 : Vec Ideal S1x256x128 .f32) (P7 : Vec Ideal S128x128 .f32) (P8 : Vec Ideal S1x128 .f32)
    (P9 : Vec Ideal S384x128 .f32) (P10 : Vec Ideal S1x384 .f32) (p g : Fin 128) :
    Value.E11 (F := Ideal) P0 P1 P2 P3 P4 P5 P6 P7 P8 P9 P10 (ix3 (0 : Fin 1) p g)
      = Cell.row (fun f => P3 (ix3 (0 : Fin 1) p f)) (fun j f => P6 (ix3 (0 : Fin 1) j f)) (fun j => P0 (ix3 (0 : Fin 1) p j))
          (fun g f => P4 (ix2 g f)) (fun g => P5 (ix2 (0 : Fin 1) g)) (fun g f => P7 (ix2 g f)) (fun g => P8 (ix2 (0 : Fin 1) g))
          (fun c g => P1 (ix2 c g)) (fun c g => P9 (ix2 c g)) (fun c => P2 (ix2 (0 : Fin 1) c))
          (fun c => P10 (ix2 (0 : Fin 1) c)) g := by
  refine (update_apply (giBlk P0 P1 P2 P3 P4 P5 P6 P7 P8) (ghBlk P3 P9 P10) P3 p g).trans ?_
  unfold Cell.row
  refine congrArg₂ (fun gi gh => Cell.gru gi gh (P3 (ix3 (0 : Fin 1) p g)) g) (funext fun c => ?_) (funext fun c => ?_)
  · refine (inputGates_apply _ P1 _ _ _ p c).trans ?_
    refine congrArg₂ (fun x b => Cell.lin x (fun g' => P1 (ix2 c g')) b) (funext fun g' => ?_)
      (congrFun (shapeCast_self P2 _) _)
    unfold Cell.hidden
    exact congrArg (max · (Ideal.ofBits .f32 0x00000000#32))
      (congrArg₂ (· + ·) (own_apply P3 P4 P5 p g')
        (congrArg (Cell.pool (Ideal.ofBits .f32 0xFF800000#32))
          (funext fun j => congrArg₂ (· * ·) (msg_apply P6 P7 P8 g' j) (shapeCast_1ab_ab_apply P0 _ p j))))
  · refine (stateGates_apply _ P9 _ p c).trans ?_
    exact congrArg₂ (fun x b => Cell.lin x (fun g' => P9 (ix2 c g')) b)
      (funext fun g' => shapeCast_1ab_ab_apply P3 _ p g') (congrFun (shapeCast_self P10 _) _)

end Cert.KernelCell

end
-- ==== Proof.KernelArray.lean ====
/-
  From the blocks the kernel writes back to the whole result array.

  The grid has 8 × 2 points; point (b, i) stages rows 128·i … 128·i + 127 of graph b's state x1 and mask, all of graph
  b's neighbour rows x2, and the weights whole (the four bias vectors as [1, ·] rows, reshaped by @main before the
  launch), and writes back rows 128·i … 128·i + 127 of graph b's result.  Entry (0, p, g) of what point (b, i) writes
  is the cell's row function of row p of its blocks (`KernelCell.block_apply`); row p of each block is row 128·i + p
  (or the whole) of the argument array, so that entry is the cell's function `Cell.G` of the argument arrays at
  (b, 128·i + p, g).  The 16 blocks tile the result array, so after the run the array is `Cell.G` everywhere.
-/
import proofs.«159456_j4861902979305_2_alg».proof.Proof.Gen.KernelIdeal.Value
import Idealize.ShloMosaic.Lib.ValueLayout
import Idealize.ShloMosaic.Lib.StableHlo.Run
import proofs.«159456_j4861902979305_2_alg».proof.Proof.Cell
import proofs.«159456_j4861902979305_2_alg».proof.Proof.KernelCell

noncomputable section

namespace Cert.KernelArray

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The cell's row function depends on its eleven rows and matrices only through their values. -/
theorem row_congr {x1 x1' : Fin 128 → EReal} {X2 X2' : Fin 256 → Fin 128 → EReal} {mask mask' : Fin 256 → EReal}
    {Ww Ww' : Fin 128 → Fin 128 → EReal} {Wb Wb' : Fin 128 → EReal} {Mw Mw' : Fin 128 → Fin 128 → EReal}
    {Mb Mb' : Fin 128 → EReal} {Gi Gi' Gh Gh' : Fin 384 → Fin 128 → EReal} {bi bi' bh bh' : Fin 384 → EReal}
    (h1 : x1 = x1') (h2 : X2 = X2') (h3 : mask = mask') (h4 : Ww = Ww') (h5 : Wb = Wb') (h6 : Mw = Mw') (h7 : Mb = Mb')
    (h8 : Gi = Gi') (h9 : Gh = Gh') (h10 : bi = bi') (h11 : bh = bh') (g : Fin 128) :
    Cell.row x1 X2 mask Ww Wb Mw Mb Gi Gh bi bh g = Cell.row x1' X2' mask' Ww' Wb' Mw' Mb' Gi' Gh' bi' bh' g := by
  rw [h1, h2, h3, h4, h5, h6, h7, h8, h9, h10, h11]

/-- The result array: the cell's function of the eleven argument arrays as launched. -/
abbrev GM (c : Dev nD) : S8x256x128.Idx → Elt Ideal .f32 :=
  Cell.G ((m ((c : Thread nD τ).loc main_arg0)) : S8x256x128.Idx → Elt Ideal .f32) ((m ((c : Thread nD τ).loc main_arg1)) : S8x256x128.Idx → Elt Ideal .f32)
    ((m ((c : Thread nD τ).loc main_arg2)) : S8x256x256.Idx → Elt Ideal .f32) ((m ((c : Thread nD τ).loc main_arg3)) : S128x128.Idx → Elt Ideal .f32)
    ((m ((c : Thread nD τ).loc main_arg4)) : S128.Idx → Elt Ideal .f32) ((m ((c : Thread nD τ).loc main_arg5)) : S128x128.Idx → Elt Ideal .f32)
    ((m ((c : Thread nD τ).loc main_arg6)) : S128.Idx → Elt Ideal .f32) ((m ((c : Thread nD τ).loc main_arg7)) : S384x128.Idx → Elt Ideal .f32)
    ((m ((c : Thread nD τ).loc main_arg8)) : S384x128.Idx → Elt Ideal .f32) ((m ((c : Thread nD τ).loc main_arg9)) : S384.Idx → Elt Ideal .f32)
    ((m ((c : Thread nD τ).loc main_arg10)) : S384.Idx → Elt Ideal .f32)

/-- The printed index maps, decided over the 16 grid points: the state and mask windows move with the output window,
    the neighbour window follows the graph only, the weight windows stay put, and the output's block indices stay in
    their ranges. -/
theorem idx_facts : ∀ t : Fin cfg0.N,
    win0_0.index t (0 : Fin 3) = win0_11.index t (0 : Fin 3) ∧ win0_0.index t (1 : Fin 3) = win0_11.index t (1 : Fin 3)
    ∧ win0_0.index t (2 : Fin 3) = 0
    ∧ win0_1.index t (0 : Fin 3) = win0_11.index t (0 : Fin 3) ∧ win0_1.index t (1 : Fin 3) = 0 ∧ win0_1.index t (2 : Fin 3) = 0
    ∧ win0_2.index t (0 : Fin 3) = win0_11.index t (0 : Fin 3) ∧ win0_2.index t (1 : Fin 3) = win0_11.index t (1 : Fin 3)
    ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 3) ≤ 7 ∧ win0_11.index t (1 : Fin 3) ≤ 1 ∧ win0_11.index t (2 : Fin 3) = 0 :=
  (by decide +kernel : ∀ t : Fin grid0.N, _)

/-- Every block of the result array is some point's. -/
theorem idx_onto : ∀ (q0 : Fin 8) (q1 : Fin 2), ∃ t : Fin cfg0.N, win0_11.index t = ![q0.val, q1.val, 0] :=
  (by decide +kernel : ∀ (q0 : Fin 8) (q1 : Fin 2), ∃ t : Fin grid0.N, win0_11.index t = ![q0.val, q1.val, 0])

/-! ## The bias rows as the region finds them -/

theorem V_main_v0 (c : Dev nD) : (V m c main_v0 : S1x128.Idx → Elt Ideal .f32)
    = shapeCast S1x128 ((m ((c : Thread nD τ).loc main_arg4)) : S128.Idx → Elt Ideal .f32) shapeCasts_S128_S1x128 := by
  dsimp only [Gen.V, Gen.hostOps0]; after_results; rfl

theorem V_main_v1 (c : Dev nD) : (V m c main_v1 : S1x128.Idx → Elt Ideal .f32)
    = shapeCast S1x128 ((m ((c : Thread nD τ).loc main_arg6)) : S128.Idx → Elt Ideal .f32) shapeCasts_S128_S1x128 := by
  dsimp only [Gen.V, Gen.hostOps0]; after_results; rfl

theorem V_main_v2 (c : Dev nD) : (V m c main_v2 : S1x384.Idx → Elt Ideal .f32)
    = shapeCast S1x384 ((m ((c : Thread nD τ).loc main_arg9)) : S384.Idx → Elt Ideal .f32) shapeCasts_S384_S1x384 := by
  dsimp only [Gen.V, Gen.hostOps0]; after_results; rfl

theorem V_main_v3 (c : Dev nD) : (V m c main_v3 : S1x384.Idx → Elt Ideal .f32)
    = shapeCast S1x384 ((m ((c : Thread nD τ).loc main_arg10)) : S384.Idx → Elt Ideal .f32) shapeCasts_S384_S1x384 := by
  dsimp only [Gen.V, Gen.hostOps0]; after_results; rfl

/-! ## Each window's block at a point, as rows of its argument array -/

/-- The state block: row p of point t's block is row (block row)·128 + p of graph (block graph). -/
theorem blk0_apply (c : Dev nD) (t : Fin cfg0.N) (p f : Fin 128) (B : Fin 8) (N : Fin 256)
    (hB : B.val = win0_11.index t (0 : Fin 3)) (hN : N.val = win0_11.index t (1 : Fin 3) * 128 + p.val) :
    (iblk m c 0 t : Vec Ideal S1x128x128 .f32) (ix3 (0 : Fin 1) p f)
      = ((m ((c : Thread nD τ).loc main_arg0)) : S8x256x128.Idx → Elt Ideal .f32) (ix3 B N f) := by
  obtain ⟨a0, a1, a2, -⟩ := idx_facts t
  unfold iblk
  rw [View.read_apply]
  show V m c main_arg0 _ = _
  rw [V_main_arg0]
  refine congrArg ((m ((c : Thread nD τ).loc main_arg0)) : S8x256x128.Idx → Elt Ideal .f32) ?_
  funext a; apply Fin.ext
  match a with
  | ⟨0, _⟩ => show win0_0.index t (0 : Fin 3) * 1 + 1 * 0 = B.val; omega
  | ⟨1, _⟩ => show win0_0.index t (1 : Fin 3) * 128 + 1 * p.val = N.val; omega
  | ⟨2, _⟩ => show win0_0.index t (2 : Fin 3) * 128 + 1 * f.val = f.val; omega

/-- The neighbour block: all 256 rows of graph (block graph). -/
theorem blk1_apply (c : Dev nD) (t : Fin cfg0.N) (j : Fin 256) (f : Fin 128) (B : Fin 8)
    (hB : B.val = win0_11.index t (0 : Fin 3)) :
    (iblk m c 1 t : Vec Ideal S1x256x128 .f32) (ix3 (0 : Fin 1) j f)
      = ((m ((c : Thread nD τ).loc main_arg1)) : S8x256x128.Idx → Elt Ideal .f32) (ix3 B j f) := by
  obtain ⟨-, -, -, a0, a1, a2, -⟩ := idx_facts t
  unfold iblk
  rw [View.read_apply]
  show V m c main_arg1 _ = _
  rw [V_main_arg1]
  refine congrArg ((m ((c : Thread nD τ).loc main_arg1)) : S8x256x128.Idx → Elt Ideal .f32) ?_
  funext a; apply Fin.ext
  match a with
  | ⟨0, _⟩ => show win0_1.index t (0 : Fin 3) * 1 + 1 * 0 = B.val; omega
  | ⟨1, _⟩ => show win0_1.index t (1 : Fin 3) * 256 + 1 * j.val = j.val; omega
  | ⟨2, _⟩ => show win0_1.index t (2 : Fin 3) * 128 + 1 * f.val = f.val; omega

/-- The mask block: row p of point t's block is row (block row)·128 + p of graph (block graph). -/
theorem blk2_apply (c : Dev nD) (t : Fin cfg0.N) (p : Fin 128) (j : Fin 256) (B : Fin 8) (N : Fin 256)
    (hB : B.val = win0_11.index t (0 : Fin 3)) (hN : N.val = win0_11.index t (1 : Fin 3) * 128 + p.val) :
    (iblk m c 2 t : Vec Ideal S1x128x256 .f32) (ix3 (0 : Fin 1) p j)
      = ((m ((c : Thread nD τ).loc main_arg2)) : S8x256x256.Idx → Elt Ideal .f32) (ix3 B N j) := by
  obtain ⟨-, -, -, -, -, -, a0, a1, a2, -⟩ := idx_facts t
  unfold iblk
  rw [View.read_apply]
  show V m c main_arg2 _ = _
  rw [V_main_arg2]
  refine congrArg ((m ((c : Thread nD τ).loc main_arg2)) : S8x256x256.Idx → Elt Ideal .f32) ?_
  funext a; apply Fin.ext
  match a with
  | ⟨0, _⟩ => show win0_2.index t (0 : Fin 3) * 1 + 1 * 0 = B.val; omega
  | ⟨1, _⟩ => show win0_2.index t (1 : Fin 3) * 128 + 1 * p.val = N.val; omega
  | ⟨2, _⟩ => show win0_2.index t (2 : Fin 3) * 256 + 1 * j.val = j.val; omega

/-- The four weight matrices are staged whole. -/
theorem blk3_apply (c : Dev nD) (t : Fin cfg0.N) (g f : Fin 128) :
    (iblk m c 3 t : Vec Ideal S128x128 .f32) (ix2 g f) = ((m ((c : Thread nD τ).loc main_arg3)) : S128x128.Idx → Elt Ideal .f32) (ix2 g f) := by
  obtain ⟨-, -, -, -, -, -, -, -, -, a0, a1, -⟩ := idx_facts t
  unfold iblk
  rw [View.read_apply]
  show V m c main_arg3 _ = _
  rw [V_main_arg3]
  refine congrArg ((m ((c : Thread nD τ).loc main_arg3)) : S128x128.Idx → Elt Ideal .f32) ?_
  funext a; apply Fin.ext
  match a with
  | ⟨0, _⟩ => show win0_3.index t (0 : Fin 2) * 128 + 1 * g.val = g.val; omega
  | ⟨1, _⟩ => show win0_3.index t (1 : Fin 2) * 128 + 1 * f.val = f.val; omega

theorem blk5_apply (c : Dev nD) (t : Fin cfg0.N) (g f : Fin 128) :
    (iblk m c 5 t : Vec Ideal S128x128 .f32) (ix2 g f) = ((m ((c : Thread nD τ).loc main_arg5)) : S128x128.Idx → Elt Ideal .f32) (ix2 g f) := by
  obtain ⟨-, -, -, -, -, -, -, -, -, -, -, -, -, a0, a1, -⟩ := idx_facts t
  unfold iblk
  rw [View.read_apply]
  show V m c main_arg5 _ = _
  rw [V_main_arg5]
  refine congrArg ((m ((c : Thread nD τ).loc main_arg5)) : S128x128.Idx → Elt Ideal .f32) ?_
  funext a; apply Fin.ext
  match a with
  | ⟨0, _⟩ => show win0_5.index t (0 : Fin 2) * 128 + 1 * g.val = g.val; omega
  | ⟨1, _⟩ => show win0_5.index t (1 : Fin 2) * 128 + 1 * f.val = f.val; omega

theorem blk7_apply (c : Dev nD) (t : Fin cfg0.N) (q : Fin 384) (f : Fin 128) :
    (iblk m c 7 t : Vec Ideal S384x128 .f32) (ix2 q f) = ((m ((c : Thread nD τ).loc main_arg7)) : S384x128.Idx → Elt Ideal .f32) (ix2 q f) := by
  obtain ⟨-, -, -, -, -, -, -, -, -, -, -, -, -, -, -, -, -, a0, a1, -⟩ := idx_facts t
  unfold iblk
  rw [View.read_apply]
  show V m c main_arg7 _ = _
  rw [V_main_arg7]
  refine congrArg ((m ((c : Thread nD τ).loc main_arg7)) : S384x128.Idx → Elt Ideal .f32) ?_
  funext a; apply Fin.ext
  match a with
  | ⟨0, _⟩ => show win0_7.index t (0 : Fin 2) * 384 + 1 * q.val = q.val; omega
  | ⟨1, _⟩ => show win0_7.index t (1 : Fin 2) * 128 + 1 * f.val = f.val; omega

theorem blk8_apply (c : Dev nD) (t : Fin cfg0.N) (q : Fin 384) (f : Fin 128) :
    (iblk m c 8 t : Vec Ideal S384x128 .f32) (ix2 q f) = ((m ((c : Thread nD τ).loc main_arg8)) : S384x128.Idx → Elt Ideal .f32) (ix2 q f) := by
  obtain ⟨-, -, -, -, -, -, -, -, -, -, -, -, -, -, -, -, -, -, -, a0, a1, -⟩ := idx_facts t
  unfold iblk
  rw [View.read_apply]
  show V m c main_arg8 _ = _
  rw [V_main_arg8]
  refine congrArg ((m ((c : Thread nD τ).loc main_arg8)) : S384x128.Idx → Elt Ideal .f32) ?_
  funext a; apply Fin.ext
  match a with
  | ⟨0, _⟩ => show win0_8.index t (0 : Fin 2) * 384 + 1 * q.val = q.val; omega
  | ⟨1, _⟩ => show win0_8.index t (1 : Fin 2) * 128 + 1 * f.val = f.val; omega

/-- The four bias rows: the [1, ·] row @main made of each bias vector, staged whole. -/
theorem blk4_apply (c : Dev nD) (t : Fin cfg0.N) (g : Fin 128) :
    (iblk m c 4 t : Vec Ideal S1x128 .f32) (ix2 (0 : Fin 1) g) = ((m ((c : Thread nD τ).loc main_arg4)) : S128.Idx → Elt Ideal .f32) (ix1 g) := by
  obtain ⟨-, -, -, -, -, -, -, -, -, -, -, a0, a1, -⟩ := idx_facts t
  unfold iblk
  rw [View.read_apply]
  show (V m c main_v0 : S1x128.Idx → Elt Ideal .f32) _ = _
  rw [V_main_v0]
  refine Eq.trans (congrArg _ ?_) (shapeCast_a_1a_apply _ shapeCasts_S128_S1x128 (0 : Fin 1) g)
  funext a; apply Fin.ext
  match a with
  | ⟨0, _⟩ => show win0_4.index t (0 : Fin 2) * 1 + 1 * 0 = 0; omega
  | ⟨1, _⟩ => show win0_4.index t (1 : Fin 2) * 128 + 1 * g.val = g.val; omega

theorem blk6_apply (c : Dev nD) (t : Fin cfg0.N) (g : Fin 128) :
    (iblk m c 6 t : Vec Ideal S1x128 .f32) (ix2 (0 : Fin 1) g) = ((m ((c : Thread nD τ).loc main_arg6)) : S128.Idx → Elt Ideal .f32) (ix1 g) := by
  obtain ⟨-, -, -, -, -, -, -, -, -, -, -, -, -, -, -, a0, a1, -⟩ := idx_facts t
  unfold iblk
  rw [View.read_apply]
  show (V m c main_v1 : S1x128.Idx → Elt Ideal .f32) _ = _
  rw [V_main_v1]
  refine Eq.trans (congrArg _ ?_) (shapeCast_a_1a_apply _ shapeCasts_S128_S1x128 (0 : Fin 1) g)
  funext a; apply Fin.ext
  match a with
  | ⟨0, _⟩ => show win0_6.index t (0 : Fin 2) * 1 + 1 * 0 = 0; omega
  | ⟨1, _⟩ => show win0_6.index t (1 : Fin 2) * 128 + 1 * g.val = g.val; omega

theorem blk9_apply (c : Dev nD) (t : Fin cfg0.N) (q : Fin 384) :
    (iblk m c 9 t : Vec Ideal S1x384 .f32) (ix2 (0 : Fin 1) q) = ((m ((c : Thread nD τ).loc main_arg9)) : S384.Idx → Elt Ideal .f32) (ix1 q) := by
  obtain ⟨-, -, -, -, -, -, -, -, -, -, -, -, -, -, -, -, -, -, -, -, -, a0, a1, -⟩ := idx_facts t
  unfold iblk
  rw [View.read_apply]
  show (V m c main_v2 : S1x384.Idx → Elt Ideal .f32) _ = _
  rw [V_main_v2]
  refine Eq.trans (congrArg _ ?_) (shapeCast_a_1a_apply _ shapeCasts_S384_S1x384 (0 : Fin 1) q)
  funext a; apply Fin.ext
  match a with
  | ⟨0, _⟩ => show win0_9.index t (0 : Fin 2) * 1 + 1 * 0 = 0; omega
  | ⟨1, _⟩ => show win0_9.index t (1 : Fin 2) * 384 + 1 * q.val = q.val; omega

theorem blk10_apply (c : Dev nD) (t : Fin cfg0.N) (q : Fin 384) :
    (iblk m c 10 t : Vec Ideal S1x384 .f32) (ix2 (0 : Fin 1) q) = ((m ((c : Thread nD τ).loc main_arg10)) : S384.Idx → Elt Ideal .f32) (ix1 q) := by
  obtain ⟨-, -, -, -, -, -, -, -, -, -, -, -, -, -, -, -, -, -, -, -, -, -, -, a0, a1, -⟩ := idx_facts t
  unfold iblk
  rw [View.read_apply]
  show (V m c main_v3 : S1x384.Idx → Elt Ideal .f32) _ = _
  rw [V_main_v3]
  refine Eq.trans (congrArg _ ?_) (shapeCast_a_1a_apply _ shapeCasts_S384_S1x384 (0 : Fin 1) q)
  funext a; apply Fin.ext
  match a with
  | ⟨0, _⟩ => show win0_10.index t (0 : Fin 2) * 1 + 1 * 0 = 0; omega
  | ⟨1, _⟩ => show win0_10.index t (1 : Fin 2) * 384 + 1 * q.val = q.val; omega

/-! ## What a point writes back, the cover, and the run -/

/-- WHAT POINT t WRITES BACK is block t of the cell's function of the argument arrays. -/
theorem flushed_eq (c : Dev nD) (t : Fin cfg0.N) :
    (dats m 0 c).flushed 11 t = ((cfg0.win 11).blk t).view.read (Elt Ideal) (GM m c) := by
  obtain ⟨-, -, -, -, -, -, -, -, -, -, -, -, -, -, -, -, -, -, -, -, -, -, -, -, -, hb, hn, h2⟩ := idx_facts t
  show (cfg0.win 11).cut (grid0.coords t) ((dats m 0 c).after 11 t) = _
  rw [after0_11]
  unfold out0_11
  simp only [View.ld_unit_zero (S := S1x128x128) hz3, View.ld_unit_zero (S := S1x256x128) hz3,
    View.ld_unit_zero (S := S1x128x256) hz3, View.ld_unit_zero (S := S128x128) hz2, View.ld_unit_zero (S := S1x128) hz2,
    View.ld_unit_zero (S := S384x128) hz2, View.ld_unit_zero (S := S1x384) hz2]
  refine funext fun (y : S1x128x128.Idx) => ?_
  obtain ⟨u, p, g, rfl⟩ : ∃ (u : Fin 1) (p g : Fin 128), y = ix3 u p g := ⟨y 0, y 1, y 2, eq_ix3 y⟩
  obtain rfl : u = 0 := Subsingleton.elim _ _
  refine Eq.trans (Value.canon11_eq (F := Ideal) (iblk m c 2 t) (iblk m c 7 t) (iblk m c 9 t) (iblk m c 0 t) (iblk m c 3 t)
    (iblk m c 4 t) (iblk m c 1 t) (iblk m c 5 t) (iblk m c 6 t) (iblk m c 8 t) (iblk m c 10 t) (ix3 (0 : Fin 1) p g)) ?_
  refine (Cert.KernelCell.block_apply (iblk m c 2 t) (iblk m c 7 t) (iblk m c 9 t) (iblk m c 0 t) (iblk m c 3 t)
    (iblk m c 4 t) (iblk m c 1 t) (iblk m c 5 t) (iblk m c 6 t) (iblk m c 8 t) (iblk m c 10 t) p g).trans ?_
  rw [View.read_apply]
  have he : ((cfg0.win 11).blk t).view.emb (ix3 (0 : Fin 1) p g)
      = ix3 (⟨win0_11.index t (0 : Fin 3), by omega⟩ : Fin 8)
          (⟨win0_11.index t (1 : Fin 3) * 128 + p.val, by have := p.isLt; omega⟩ : Fin 256) g := by
    funext a; apply Fin.ext
    match a with
    | ⟨0, _⟩ => show win0_11.index t (0 : Fin 3) * 1 + 1 * 0 = win0_11.index t (0 : Fin 3); omega
    | ⟨1, _⟩ => show win0_11.index t (1 : Fin 3) * 128 + 1 * p.val = win0_11.index t (1 : Fin 3) * 128 + p.val; omega
    | ⟨2, _⟩ => show win0_11.index t (2 : Fin 3) * 128 + 1 * g.val = g.val; omega
  rw [he]
  show _ = Cell.out _ _ _ _ _ _ _ _ _ _ _ (⟨win0_11.index t (0 : Fin 3), by omega⟩ : Fin 8)
    (⟨win0_11.index t (1 : Fin 3) * 128 + p.val, by have := p.isLt; omega⟩ : Fin 256) g
  unfold Cell.out
  exact row_congr (funext fun f => blk0_apply m c t p f _ _ rfl rfl)
    (funext fun j => funext fun f => blk1_apply m c t j f _ rfl)
    (funext fun j => blk2_apply m c t p j _ _ rfl rfl)
    (funext fun g' => funext fun f => blk3_apply m c t g' f) (funext fun g' => blk4_apply m c t g')
    (funext fun g' => funext fun f => blk5_apply m c t g' f) (funext fun g' => blk6_apply m c t g')
    (funext fun q => funext fun f => blk7_apply m c t q f) (funext fun q => funext fun f => blk8_apply m c t q f)
    (funext fun q => blk9_apply m c t q) (funext fun q => blk10_apply m c t q) g

/-- An index of the result array is in point t's block iff each coordinate is in the block's range on its axis. -/
theorem mem_blk (t : Fin cfg0.N) (i : S8x256x128.Idx) :
    i ∈ ((cfg0.win 11).blk t).view.set ↔ ∀ a : Fin 3, win0_11.index t a * S1x128x128.size a ≤ (i a).val
      ∧ (i a).val < win0_11.index t a * S1x128x128.size a + S1x128x128.size a := by
  show i ∈ ((View.whole main_v4).slice (win0_11.rect t)).set ↔ _
  rw [View.set_slice_whole, Rect.mem_set_unit]
  exact Iff.rfl

/-- The 16 blocks cover the result array: row n of graph b is in the block of point (b, n / 128). -/
theorem cover (i : S8x256x128.Idx) :
    ∃ t : Fin cfg0.N, (cfg0.win 11).flush t = true ∧ i ∈ ((cfg0.win 11).blk t).view.set := by
  have hi0 : (i 0).val < 8 := (i 0).isLt
  have hi1 : (i 1).val < 256 := (i 1).isLt
  have hi2 : (i 2).val < 128 := (i 2).isLt
  obtain ⟨t, ht⟩ := idx_onto ⟨(i 0).val, hi0⟩ ⟨(i 1).val / 128, by omega⟩
  have q0 : win0_11.index t (0 : Fin 3) = (i 0).val := congrFun ht 0
  have q1 : win0_11.index t (1 : Fin 3) = (i 1).val / 128 := congrFun ht 1
  have q2 : win0_11.index t (2 : Fin 3) = 0 := congrFun ht 2
  refine ⟨t, flush0_11 t, ?_⟩
  rw [mem_blk]
  intro a
  match a with
  | ⟨0, _⟩ =>
    show win0_11.index t (0 : Fin 3) * 1 ≤ (i 0).val ∧ (i 0).val < win0_11.index t (0 : Fin 3) * 1 + 1; omega
  | ⟨1, _⟩ =>
    show win0_11.index t (1 : Fin 3) * 128 ≤ (i 1).val ∧ (i 1).val < win0_11.index t (1 : Fin 3) * 128 + 128; omega
  | ⟨2, _⟩ =>
    show win0_11.index t (2 : Fin 3) * 128 ≤ (i 2).val ∧ (i 2).val < win0_11.index t (2 : Fin 3) * 128 + 128; omega

/-- THE RESULT ARRAY after the run is the cell's function of the argument arrays. -/
theorem final (c : Dev nD) : (dats m 0 c).arrAt 11 cfg0.N = GM m c :=
  (dats m 0 c).arrAt_eq_of_cover 11 (GM m c) (fun t _ => flushed_eq m c t) cover

/-- The kernel's run, read: the result array at the cell's function of the arguments, the arguments unchanged. -/
theorem run : θ_run defs (onTc (τ := τ) (main (F := Ideal))) ⟨m, fun _ => 0, ρ⟩ fun r => ∀ c : Dev nD,
      r.2.mem ((c : Thread nD τ).loc main_v4) = GM m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelArray

end
-- ==== Proof.LibHostSlabs.lean ====
/-
  Reusable lemmas: host operations on an [a, b, c, d] array of a·b slabs (c rows of d coordinates each), read at an
  entry.

  A jnp program that treats every slab (n, k) of a four-axis array separately, keeping reduced axes as unit axes,
  prints sums and running maxima over the row axis (axis 2, leaving [a, b, d]) and over the coordinate axis (axis 3,
  leaving [a, b, c]), and broadcast_in_dims that put a reduced axis back: [a, b, 1] → [a, b, p, q] (a per-slab scalar),
  [a, b, 1, 1] → [a, b, c, d], [a, b, c, 1] → [a, b, c, d] (a per-row scalar along the coordinates) and
  [a, b, d] → [a, b, 1, d].  Each lemma reads one such operation at an entry written by its coordinates; sums and maxima
  are over the extended reals.  Generic in the extents.
-/
import Idealize.ShloMosaic.Lib.Pipeline.Value
import Idealize.ShloMosaic.Lib.ValueIdx
import Idealize.ShloMosaic.Lib.IdealHost
import Idealize.ShloMosaic.PureOps.Ideal.Laws

noncomputable section

namespace Cert.HostSlabs

open Idealize.ShloMosaic Idealize.ShloMosaic.ValueIdx

variable {α : Type} {a b c d p q : ℕ}

/-! ## Broadcasts that put reduced axes back -/

/-- A per-slab scalar [a, b, 1] broadcast to [a, b, p, q] along any placement of its unit axis reads, at (n, k, u, v),
    the operand at (n, k, 0). -/
theorem bcast_ab1_abpq_apply (dims : Fin 3 → Fin 4) (hd0 : dims 0 = 0) (hd1 : dims 1 = 1)
    (h : (⟨3, ![a, b, 1]⟩ : Shape).BroadcastsInDim ⟨4, ![a, b, p, q]⟩ dims)
    (x : (⟨3, ![a, b, 1]⟩ : Shape).Idx → α) (n : Fin a) (k : Fin b) (u : Fin p) (v : Fin q) :
    broadcastInDim ⟨4, ![a, b, p, q]⟩ dims h x (ix4 n k u v) = x (ix3 n k (0 : Fin 1)) := by
  refine broadcastInDim_apply dims h x (ix4 n k u v) (ix3 n k (0 : Fin 1)) fun ax => ?_
  match ax with
  | ⟨0, _⟩ =>
    show n.val = if a = 1 then 0 else (ix4 n k u v (dims 0)).val
    rw [hd0]
    split
    · have := n.isLt; omega
    · rfl
  | ⟨1, _⟩ =>
    show k.val = if b = 1 then 0 else (ix4 n k u v (dims 1)).val
    rw [hd1]
    split
    · have := k.isLt; omega
    · rfl
  | ⟨2, _⟩ => rfl

/-- A per-slab scalar kept as [a, b, 1, 1] broadcast to [a, b, c, d] reads, at (n, k, i, l), the operand at
    (n, k, 0, 0). -/
theorem bcast_ab11_abcd_apply (h : (⟨4, ![a, b, 1, 1]⟩ : Shape).BroadcastsInDim ⟨4, ![a, b, c, d]⟩ ![0, 1, 2, 3])
    (x : (⟨4, ![a, b, 1, 1]⟩ : Shape).Idx → α) (n : Fin a) (k : Fin b) (i : Fin c) (l : Fin d) :
    broadcastInDim ⟨4, ![a, b, c, d]⟩ ![0, 1, 2, 3] h x (ix4 n k i l) = x (ix4 n k (0 : Fin 1) (0 : Fin 1)) := by
  refine broadcastInDim_apply _ h x (ix4 n k i l) (ix4 n k (0 : Fin 1) (0 : Fin 1)) fun ax => ?_
  match ax with
  | ⟨0, _⟩ =>
    show n.val = if a = 1 then 0 else n.val
    split
    · have := n.isLt; omega
    · rfl
  | ⟨1, _⟩ =>
    show k.val = if b = 1 then 0 else k.val
    split
    · have := k.isLt; omega
    · rfl
  | ⟨2, _⟩ => rfl
  | ⟨3, _⟩ => rfl

/-- A per-row scalar [a, b, c, 1] broadcast along the coordinates to [a, b, c, d] reads, at (n, k, i, l), the operand at
    (n, k, i, 0). -/
theorem bcast_abc1_abcd_apply (h : (⟨4, ![a, b, c, 1]⟩ : Shape).BroadcastsInDim ⟨4, ![a, b, c, d]⟩ ![0, 1, 2, 3])
    (x : (⟨4, ![a, b, c, 1]⟩ : Shape).Idx → α) (n : Fin a) (k : Fin b) (i : Fin c) (l : Fin d) :
    broadcastInDim ⟨4, ![a, b, c, d]⟩ ![0, 1, 2, 3] h x (ix4 n k i l) = x (ix4 n k i (0 : Fin 1)) := by
  refine broadcastInDim_apply _ h x (ix4 n k i l) (ix4 n k i (0 : Fin 1)) fun ax => ?_
  match ax with
  | ⟨0, _⟩ =>
    show n.val = if a = 1 then 0 else n.val
    split
    · have := n.isLt; omega
    · rfl
  | ⟨1, _⟩ =>
    show k.val = if b = 1 then 0 else k.val
    split
    · have := k.isLt; omega
    · rfl
  | ⟨2, _⟩ =>
    show i.val = if c = 1 then 0 else i.val
    split
    · have := i.isLt; omega
    · rfl
  | ⟨3, _⟩ => rfl

/-- A per-slab vector [a, b, d] given its unit row axis back, [a, b, 1, d], reads, at (n, k, u, l), the operand at
    (n, k, l). -/
theorem bcast_abd_ab1d_apply (h : (⟨3, ![a, b, d]⟩ : Shape).BroadcastsInDim ⟨4, ![a, b, 1, d]⟩ ![0, 1, 3])
    (x : (⟨3, ![a, b, d]⟩ : Shape).Idx → α) (n : Fin a) (k : Fin b) (u : Fin 1) (l : Fin d) :
    broadcastInDim ⟨4, ![a, b, 1, d]⟩ ![0, 1, 3] h x (ix4 n k u l) = x (ix3 n k l) := by
  refine broadcastInDim_apply _ h x (ix4 n k u l) (ix3 n k l) fun ax => ?_
  match ax with
  | ⟨0, _⟩ =>
    show n.val = if a = 1 then 0 else n.val
    split
    · have := n.isLt; omega
    · rfl
  | ⟨1, _⟩ =>
    show k.val = if b = 1 then 0 else k.val
    split
    · have := k.isLt; omega
    · rfl
  | ⟨2, _⟩ =>
    show l.val = if d = 1 then 0 else l.val
    split
    · have := l.isLt; omega
    · rfl

/-! ## Reductions over the row axis and over the coordinate axis -/

/-- The source index of a reduction over the row axis: (n, k, l) with the row i inserted is (n, k, i, l). -/
theorem lift_rows (h : (⟨4, ![a, b, c, d]⟩ : Shape).Reduces [(2 : Fin 4)] ⟨3, ![a, b, d]⟩) (n : Fin a) (k : Fin b) (l : Fin d)
    (i : Fin c) : h.lift (ix3 n k l) i = ix4 n k i l := by
  funext e
  apply Fin.ext
  show h.liftVal (ix3 n k l) i.val e = (ix4 n k i l e).val
  unfold Shape.Reduces.liftVal
  match e with
  | ⟨0, _⟩ => rfl
  | ⟨1, _⟩ => rfl
  | ⟨2, _⟩ => rfl
  | ⟨3, _⟩ => rfl

/-- The source index of a reduction over the coordinate axis: (n, k, i) with the coordinate l inserted is (n, k, i, l). -/
theorem lift_coords (h : (⟨4, ![a, b, c, d]⟩ : Shape).Reduces [(3 : Fin 4)] ⟨3, ![a, b, c]⟩) (n : Fin a) (k : Fin b) (i : Fin c)
    (l : Fin d) : h.lift (ix3 n k i) l = ix4 n k i l := by
  funext e
  apply Fin.ext
  show h.liftVal (ix3 n k i) l.val e = (ix4 n k i l e).val
  unfold Shape.Reduces.liftVal
  match e with
  | ⟨0, _⟩ => rfl
  | ⟨1, _⟩ => rfl
  | ⟨2, _⟩ => rfl
  | ⟨3, _⟩ => rfl

/-- The host's sum over the rows of every slab: at (n, k, l) the initial value plus the sum over i of the entries
    (n, k, i, l). -/
theorem hostSumRows_apply {φ : FTy} {u : Shape} (x : FVec Ideal ⟨4, ![a, b, c, d]⟩ φ) (init : u.Idx → Ideal φ)
    (h' : (⟨4, ![a, b, c, d]⟩ : Shape).ReducesTo [(2 : Fin 4)] ⟨3, ![a, b, d]⟩)
    (h : (⟨4, ![a, b, c, d]⟩ : Shape).Reduces [(2 : Fin 4)] ⟨3, ![a, b, d]⟩) (hu : 0 < u.numel)
    (n : Fin a) (k : Fin b) (l : Fin d) :
    Host.reduceAdd x init h' hu (ix3 n k l) = init (Shape.Idx.first hu) + ∑ i : Fin c, x (ix4 n k i l) := by
  refine (Ideal.hostReduceAdd_single h' h x (init (Shape.Idx.first hu)) (ix3 n k l)).trans ?_
  refine congrArg (init (Shape.Idx.first hu) + ·) ?_
  show ∑ i : Fin c, x (h.lift (ix3 n k l) i) = _
  exact Finset.sum_congr rfl fun i _ => congrArg x (lift_rows h n k l i)

/-- The host's sum over the coordinates of every row: at (n, k, i) the initial value plus the sum over l of the
    entries (n, k, i, l). -/
theorem hostSumCoords_apply {φ : FTy} {u : Shape} (x : FVec Ideal ⟨4, ![a, b, c, d]⟩ φ) (init : u.Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < u.numel)
    (n : Fin a) (k : Fin b) (i : Fin c) :
    Host.reduceAdd x init h' hu (ix3 n k i) = init (Shape.Idx.first hu) + ∑ l : Fin d, x (ix4 n k i l) := by
  refine (Ideal.hostReduceAdd_single h' h x (init (Shape.Idx.first hu)) (ix3 n k i)).trans ?_
  refine congrArg (init (Shape.Idx.first hu) + ·) ?_
  show ∑ l : Fin d, x (h.lift (ix3 n k i) l) = _
  exact Finset.sum_congr rfl fun l _ => congrArg x (lift_coords h n k i l)

/-- The host's running maximum over the rows of every slab: at (n, k, l) the fold of max, from the initial value, over
    the entries (n, k, i, l). -/
theorem hostMaxRows_apply {φ : FTy} {u : Shape} (x : FVec Ideal ⟨4, ![a, b, c, d]⟩ φ) (init : u.Idx → Ideal φ)
    (h' : (⟨4, ![a, b, c, d]⟩ : Shape).ReducesTo [(2 : Fin 4)] ⟨3, ![a, b, d]⟩)
    (h : (⟨4, ![a, b, c, d]⟩ : Shape).Reduces [(2 : Fin 4)] ⟨3, ![a, b, d]⟩) (hu : 0 < u.numel)
    (n : Fin a) (k : Fin b) (l : Fin d) :
    Host.reduce (FloatOps.maximumf (F := Ideal) (φ := φ)) x init h' hu (ix3 n k l)
      = (Finset.univ : Finset (Fin c)).fold max (init (Shape.Idx.first hu)) (fun i => x (ix4 n k i l)) := by
  refine (Host.reduce_eq_fold_single (FloatOps.maximumf (F := Ideal) (φ := φ)) x init h' h hu (ix3 n k l)).trans ?_
  have e : (x ∘ h.lift (ix3 n k l)) = fun i => x (ix4 n k i l) := funext fun i => congrArg x (lift_rows h n k l i)
  show (Finset.univ : Finset (Fin c)).fold max (init (Shape.Idx.first hu)) (x ∘ h.lift (ix3 n k l)) = _
  rw [e]
  rfl

end Cert.HostSlabs

end
-- ==== Proof.LibLogistic.lean ====
/-
  A reusable lemma: the logistic function written two ways, on the extended reals, and the f32 words of 0, 1 and 0.5.

  One program computes the logistic function as 1 / (1 + e^(-v)); the other as 1/2 · tanh (v/2) + 1/2.  Over the
  reals these are one function: with a = e^(v/2),  tanh (v/2) = (a - 1/a) / (a + 1/a),  so
  1/2 · tanh (v/2) + 1/2 = a / (a + 1/a) = 1 / (1 + 1/a²) = 1 / (1 + e^(-v)).
  Over the extended reals the identity survives at both infinities: at -∞ both sides are 0 (tanh (-∞) = -1,
  e^(+∞) = +∞, 1/∞ = 0) and at +∞ both are 1.  So the identity needs no finiteness of v.
-/
import Idealize.ShloMosaic.PureOps.Ideal

noncomputable section

namespace Cert.Logistic

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 0.5 denotes the real 1/2. -/
theorem ofBits_half : Ideal.ofBits .f32 0x3F000000#32 = ((1 / 2 : ℝ) : EReal) := by
  simp [Ideal.ofBits, Ideal.ieee, -EReal.coe_mul]; norm_num

/-- The quotient 1 / (1 + e^(-v)) with the literal 1.0 in both places is the logistic function. -/
theorem one_div_one_add_exp_neg (v : EReal) :
    Ideal.div (Ideal.ofBits .f32 0x3F800000#32) (Ideal.ofBits .f32 0x3F800000#32 + Ideal.exp (-v)) = Ideal.logistic v := by
  rw [ofBits_one]; rfl

/-- Over the reals: 1/2 · tanh (r/2) + 1/2 = 1 / (1 + e^(-r)). -/
theorem real_half_tanh (r : ℝ) : (1 / 2 : ℝ) * Real.tanh ((1 / 2) * r) + 1 / 2 = (1 + Real.exp (-r))⁻¹ := by
  have hp : 0 < Real.exp (1 / 2 * r) := Real.exp_pos _
  have hn : Real.exp (-(1 / 2 * r)) = (Real.exp (1 / 2 * r))⁻¹ := Real.exp_neg _
  have h1 : Real.exp (-r) = (Real.exp (1 / 2 * r))⁻¹ * (Real.exp (1 / 2 * r))⁻¹ := by
    rw [← hn, ← Real.exp_add]; congr 1; ring
  rw [Real.tanh_eq_sinh_div_cosh, Real.sinh_eq, Real.cosh_eq, hn, h1]
  field_simp
  ring

/-- Over the extended reals, with the literal 0.5 in all three places: 0.5 · tanh (0.5 · v) + 0.5 is the logistic
    function of v, infinities included. -/
theorem half_tanh_half (v : EReal) :
    Ideal.ofBits .f32 0x3F000000#32 * Ideal.tanh (Ideal.ofBits .f32 0x3F000000#32 * v) + Ideal.ofBits .f32 0x3F000000#32
      = Ideal.logistic v := by
  rw [ofBits_half]
  have hneg : (-1 : EReal) = ((-1 : ℝ) : EReal) := by norm_num
  have hone : (1 : EReal) = ((1 : ℝ) : EReal) := rfl
  induction v using EReal.rec with
  | bot =>
    rw [EReal.coe_mul_bot_of_pos (by norm_num), Ideal.tanh_bot, Ideal.logistic_bot, hneg, ← EReal.coe_mul, ← EReal.coe_add]
    norm_num
  | coe r =>
    rw [← EReal.coe_mul, Ideal.tanh_coe, ← EReal.coe_mul, ← EReal.coe_add, Ideal.logistic_coe, real_half_tanh]
  | top =>
    rw [EReal.coe_mul_top_of_pos (by norm_num), Ideal.tanh_top, Ideal.logistic_top, hone, ← EReal.coe_mul, ← EReal.coe_add]
    norm_num

end Cert.Logistic

end
-- ==== Proof.RefCell.lean ====
/-
  What the reference computes at one entry of its result, over the extended reals.

  The reference is a straight line of host operations over whole arrays.  Read one stage at a time at an entry written
  by its coordinates: the two affine maps are contractions over the feature axis plus a bias spread over the other axes;
  the masked messages are a four-axis product [8, 256, 256, 128] whose entry (b, n, j, g) is message[b, j, g] ·
  mask[b, n, j]; the max-pool is a host reduce over axis 2 from −∞, the running maximum over the 256 neighbours; the gate
  layers work on the array flattened to 2048 rows (row b · 256 + n is node n of graph b); the three gates of a feature
  are column slices at 0, 128 and 256; and the logistic function is spelt 1 / (1 + e^(−v)) with the literal 1.0, which is
  the logistic function on every extended real.  The last lemma says the result at (b, n, g) is the cell's function
  `Cell.out` of the argument arrays.
-/
import proofs.«159456_j4861902979305_2_alg».proof.Proof.Gen.ReferenceIdeal.Read
import proofs.«159456_j4861902979305_2_alg».proof.Proof.Cell
import proofs.«159456_j4861902979305_2_alg».proof.Proof.LibHostSlabs
import proofs.«159456_j4861902979305_2_alg».proof.Proof.LibLogistic
import proofs.«159456_j4861902979305_2_alg».proof.Proof.LibIndexExt

noncomputable section

namespace Cert.RefCell

open Idealize.ShloMosaic Idealize.ShloMosaic.ValueIdx Cert.ReferenceIdeal Cert.ReferenceIdeal.Read Cert.IndexExt
open Cert.ReferenceIdeal.Gen

variable (x0 x1 : (⟨S8x256x128, .f32⟩ : BufTy).Contents (Elt Ideal)) (x2 : (⟨S8x256x256, .f32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 x8 : (⟨S384x128, .f32⟩ : BufTy).Contents (Elt Ideal)) (x9 x10 : (⟨S384, .f32⟩ : BufTy).Contents (Elt Ideal))

/-- The node's own affine map at graph b, node n and feature g. -/
theorem own_apply (b : Fin 8) (n : Fin 256) (g : Fin 128) :
    val_main_v3 (F := Ideal) x0 x3 x4 (ix3 b n g)
      = Cell.lin (fun f => x0 (ix3 b n f)) (fun f => x3 (ix2 g f)) (x4 (ix1 g)) := by
  rw [val_main_v3_apply, val_main_v0_apply, val_main_v2_apply, val_main_v1_apply]
  unfold Cell.lin
  exact congrArg₂ (· + ·)
    (Finset.sum_congr rfl fun k _ => congrArg₂ (· * ·) (congrArg x0 (ext3 rfl rfl rfl)) (congrArg x3 (ext2 rfl rfl)))
    (congrArg x4 (ext1 rfl))

/-- A neighbour's message at graph b, neighbour j and feature g. -/
theorem msg_apply (b : Fin 8) (j : Fin 256) (g : Fin 128) :
    val_main_v7 (F := Ideal) x1 x5 x6 (ix3 b j g)
      = Cell.lin (fun f => x1 (ix3 b j f)) (fun f => x5 (ix2 g f)) (x6 (ix1 g)) := by
  rw [val_main_v7_apply, val_main_v4_apply, val_main_v6_apply, val_main_v5_apply]
  unfold Cell.lin
  exact congrArg₂ (· + ·)
    (Finset.sum_congr rfl fun k _ => congrArg₂ (· * ·) (congrArg x1 (ext3 rfl rfl rfl)) (congrArg x5 (ext2 rfl rfl)))
    (congrArg x6 (ext1 rfl))

/-- The four-axis array of masked messages at (b, n, j, g): neighbour j's message times how much node n hears of it. -/
theorem masked_apply (b : Fin 8) (n j : Fin 256) (g : Fin 128) :
    val_main_v12 (F := Ideal) x1 x2 x5 x6 (ix4 b n j g) = val_main_v7 (F := Ideal) x1 x5 x6 (ix3 b j g) * x2 (ix3 b n j) := by
  rw [val_main_v12_apply, val_main_v10_apply, val_main_v8_apply, val_main_v11_apply, val_main_v9_apply]
  exact congrArg₂ (· * ·) (congrArg (val_main_v7 (F := Ideal) x1 x5 x6) (ext3 rfl rfl rfl)) (congrArg x2 (ext3 rfl rfl rfl))

/-- The max-pool at (b, n, g): the running maximum, from −∞, of the masked messages of the 256 neighbours. -/
theorem pooled_apply (b : Fin 8) (n : Fin 256) (g : Fin 128) :
    val_main_v13 (F := Ideal) x1 x2 x5 x6 (ix3 b n g)
      = Cell.pool (Ideal.ofBits .f32 0xFF800000#32)
          (fun j => Cell.lin (fun f => x1 (ix3 b j f)) (fun f => x5 (ix2 g f)) (x6 (ix1 g)) * x2 (ix3 b n j)) := by
  unfold val_main_v13
  refine (Cert.HostSlabs.hostMaxRows_apply _ _ reducesTo_S8x256x256x128_S8x256x128_d2 (by decide) h_S_ b n g).trans ?_
  unfold Cell.pool
  refine congrArg₂ (fun i f => Finset.fold max i f Finset.univ) rfl (funext fun j => ?_)
  rw [masked_apply, msg_apply]

/-- The hidden row at (b, n, g). -/
theorem hidden_apply (b : Fin 8) (n : Fin 256) (g : Fin 128) :
    val_main_v15 (F := Ideal) x0 x1 x2 x3 x4 x5 x6 (ix3 b n g)
      = Cell.hidden (fun f => x0 (ix3 b n f)) (fun j f => x1 (ix3 b j f)) (fun j => x2 (ix3 b n j))
          (fun g f => x3 (ix2 g f)) (fun g => x4 (ix1 g)) (fun g f => x5 (ix2 g f)) (fun g => x6 (ix1 g)) g := by
  rw [val_main_v15_apply, val_main_v14_apply, val_main_call0_v0_apply, own_apply, pooled_apply]
  rfl

/-- Row b · 256 + n of the flattened arrays. -/
def rowOf (b : Fin 8) (n : Fin 256) : Fin 2048 := ⟨b.val * 256 + n.val, by have := b.isLt; have := n.isLt; omega⟩

/-- The input-side gate rows at node (b, n) and gate output c. -/
theorem inputGates_apply (b : Fin 8) (n : Fin 256) (c : Fin 384) :
    val_main_v22 (F := Ideal) x0 x1 x2 x3 x4 x5 x6 x7 x9 (ix2 (rowOf b n) c)
      = Cell.lin (Cell.hidden (fun f => x0 (ix3 b n f)) (fun j f => x1 (ix3 b j f)) (fun j => x2 (ix3 b n j))
            (fun g f => x3 (ix2 g f)) (fun g => x4 (ix1 g)) (fun g f => x5 (ix2 g f)) (fun g => x6 (ix1 g)))
          (fun g => x7 (ix2 c g)) (x9 (ix1 c)) := by
  rw [val_main_v22_apply, val_main_v19_apply, val_main_v21_apply, val_main_v20_apply]
  unfold Cell.lin
  refine congrArg₂ (· + ·) (Finset.sum_congr rfl fun k _ => congrArg₂ (· * ·) ?_ ?_) (congrArg x9 (ext1 rfl))
  · rw [val_main_v16_apply, ← hidden_apply]
    refine congrArg (val_main_v15 (F := Ideal) x0 x1 x2 x3 x4 x5 x6) (ext3 ?_ ?_ ?_)
    · have hb := b.isLt; have hn := n.isLt; have hk := k.isLt
      show ((b.val * 256 + n.val) * 128 + k.val) / 32768 = b.val; omega
    · have hb := b.isLt; have hn := n.isLt; have hk := k.isLt
      show ((b.val * 256 + n.val) * 128 + k.val) / 128 % 256 = n.val; omega
    · have hb := b.isLt; have hn := n.isLt; have hk := k.isLt
      show ((b.val * 256 + n.val) * 128 + k.val) % 128 = k.val; omega
  · rw [val_main_v18_apply]
    exact congrArg x7 (ext2 rfl rfl)

/-- The state-side gate rows at node (b, n) and gate output c. -/
theorem stateGates_apply (b : Fin 8) (n : Fin 256) (c : Fin 384) :
    val_main_v27 (F := Ideal) x0 x8 x10 (ix2 (rowOf b n) c)
      = Cell.lin (fun g => x0 (ix3 b n g)) (fun g => x8 (ix2 c g)) (x10 (ix1 c)) := by
  rw [val_main_v27_apply, val_main_v24_apply, val_main_v26_apply, val_main_v25_apply]
  unfold Cell.lin
  refine congrArg₂ (· + ·) (Finset.sum_congr rfl fun k _ => congrArg₂ (· * ·) ?_ ?_) (congrArg x10 (ext1 rfl))
  · rw [val_main_v17_apply]
    refine congrArg x0 (ext3 ?_ ?_ ?_)
    · have hb := b.isLt; have hn := n.isLt; have hk := k.isLt
      show ((b.val * 256 + n.val) * 128 + k.val) / 32768 = b.val; omega
    · have hb := b.isLt; have hn := n.isLt; have hk := k.isLt
      show ((b.val * 256 + n.val) * 128 + k.val) / 128 % 256 = n.val; omega
    · have hb := b.isLt; have hn := n.isLt; have hk := k.isLt
      show ((b.val * 256 + n.val) * 128 + k.val) % 128 = k.val; omega
  · rw [val_main_v23_apply]
    exact congrArg x8 (ext2 rfl rfl)

/-- The host's spelling of the logistic function, 1 / (1 + e^(−v)) with the literal 1.0, is the logistic function. -/
theorem host_logistic (v : EReal) :
    FloatOps.hostDivf (F := Ideal) (φ := .f32) (FloatOps.ofBits .f32 0x3F800000#32)
        (FloatOps.addf (FloatOps.ofBits .f32 0x3F800000#32) (FloatOps.hostUnary .exp (FloatOps.hostNegf v)))
      = Ideal.logistic v :=
  Cert.Logistic.one_div_one_add_exp_neg v

/-- THE RESULT at graph b, node n and feature g is the cell's function of the argument arrays. -/
theorem result_apply (b : Fin 8) (n : Fin 256) (g : Fin 128) :
    val_main_v56 (F := Ideal) x0 x1 x2 x3 x4 x5 x6 x7 x8 x9 x10 (ix3 b n g) = Cell.out x0 x1 x2 x3 x4 x5 x6 x7 x8 x9 x10 b n g := by
  have hb := b.isLt; have hn := n.isLt; have hg := g.isLt
  have e56 : idx_main_v56 (ix3 b n g) = ix2 (rowOf b n) g :=
    ext2 (by show ((b.val * 256 + n.val) * 128 + g.val) / 128 = b.val * 256 + n.val; omega)
      (by show ((b.val * 256 + n.val) * 128 + g.val) % 128 = g.val; omega)
  have e28 : idx_main_v28 (ix2 (rowOf b n) g) = ix2 (rowOf b n) (Cell.lo g) := ext2 rfl rfl
  have e31 : idx_main_v31 (ix2 (rowOf b n) g) = ix2 (rowOf b n) (Cell.lo g) := ext2 rfl rfl
  have e29 : idx_main_v29 (ix2 (rowOf b n) g) = ix2 (rowOf b n) (Cell.mid g) := ext2 rfl (Nat.add_comm 128 g.val)
  have e32 : idx_main_v32 (ix2 (rowOf b n) g) = ix2 (rowOf b n) (Cell.mid g) := ext2 rfl (Nat.add_comm 128 g.val)
  have e30 : idx_main_v30 (ix2 (rowOf b n) g) = ix2 (rowOf b n) (Cell.hi g) := ext2 rfl (Nat.add_comm 256 g.val)
  have e33 : idx_main_v33 (ix2 (rowOf b n) g) = ix2 (rowOf b n) (Cell.hi g) := ext2 rfl (Nat.add_comm 256 g.val)
  have e17 : idx_main_v17 (ix2 (rowOf b n) g) = ix3 b n g :=
    ext3 (by show ((b.val * 256 + n.val) * 128 + g.val) / 32768 = b.val; omega)
      (by show ((b.val * 256 + n.val) * 128 + g.val) / 128 % 256 = n.val; omega)
      (by show ((b.val * 256 + n.val) * 128 + g.val) % 128 = g.val; omega)
  rw [val_main_v56_apply, e56, val_main_v55_apply, val_main_v53_apply, val_main_v54_apply, val_main_v52_apply,
    val_main_v51_apply, val_main_v50_apply, val_main_v49_apply, val_main_v48_apply, val_main_v47_apply, val_main_v46_apply,
    val_main_v45_apply, val_main_v44_apply, val_main_v43_apply, val_main_v42_apply, val_main_v41_apply, val_main_v40_apply,
    val_main_v39_apply, val_main_v38_apply, val_main_v37_apply, val_main_v36_apply, val_main_v35_apply, val_main_v34_apply,
    val_main_v28_apply, val_main_v29_apply, val_main_v30_apply, val_main_v31_apply, val_main_v32_apply, val_main_v33_apply,
    val_main_v17_apply, e28, e29, e30, e31, e32, e33, e17,
    inputGates_apply, inputGates_apply, inputGates_apply, stateGates_apply, stateGates_apply, stateGates_apply]
  simp only [val_main_cst_1_apply, val_main_cst_0_apply, val_main_cst_2_apply, val_main_cst_3_apply, val_main_cst_4_apply,
    host_logistic]
  rfl

/-- The reference's result array is the cell's function `Cell.G` of the argument arrays. -/
theorem result_eq :
    val_main_v56 (F := Ideal) x0 x1 x2 x3 x4 x5 x6 x7 x8 x9 x10 = Cell.G x0 x1 x2 x3 x4 x5 x6 x7 x8 x9 x10 := by
  funext i
  rw [eq_ix3 i]
  exact result_apply x0 x1 x2 x3 x4 x5 x6 x7 x8 x9 x10 (i 0) (i 1) (i 2)

end Cert.RefCell

end
-- ==== Proof.lean ====
/-
  A message-passing graph cell with a gated update, kernel against reference, over the extended reals.

  Both programs compute, for every node n of every graph b and every feature g, the cell's function `Cell.out`
  (Proof/Cell.lean): the node's own affine map plus the masked maximum of its 256 neighbours' affine messages, clamped at
  zero, fed with the old state through two gate layers and the gated update (1 − z) · tanh(·) + z · state.

  The kernel tiles the nodes in blocks of 128 rows over an 8 × 2 grid and takes the masked maximum as a running maximum
  over four chunks of 64 neighbours, each started at −∞; the reference takes one maximum over all 256 neighbours of a
  four-axis array, works on the nodes flattened to 2048 rows, and spells the logistic function 1 / (1 + e^(−v)).
  The laws that join them: max is associative, commutative and idempotent (`Cell.pool_chunks`); 1 / (1 + e^(−v)) with
  the literal 1.0 is the logistic function on every extended real; a matrix product into zeros and a host contraction
  are the same sum.  None of them needs an entry to be finite, so the precondition is never opened.

  Proof/KernelCell.lean reads the kernel body's stored block at an entry, Proof/KernelArray.lean carries that through
  the 16 blocks to the whole result array, Proof/RefCell.lean reads the reference's result at an entry; here the two
  runs are set side by side.  The ideal pass rewrote nothing in the kernel, so its sanctioned idealization is its own
  text.
-/
import proofs.«159456_j4861902979305_2_alg».proof.Defs
import proofs.«159456_j4861902979305_2_alg».proof.Proof.Gen.Kernel
import proofs.«159456_j4861902979305_2_alg».proof.Proof.Gen.Kernel.Skeleton
import proofs.«159456_j4861902979305_2_alg».proof.Proof.Gen.Kernel.Launch
import proofs.«159456_j4861902979305_2_alg».proof.Proof.Gen.Kernel.Points
import proofs.«159456_j4861902979305_2_alg».proof.Proof.Gen.Kernel.Frame
import proofs.«159456_j4861902979305_2_alg».proof.Proof.Gen.KernelIdeal
import proofs.«159456_j4861902979305_2_alg».proof.Proof.Gen.KernelIdeal.Skeleton
import proofs.«159456_j4861902979305_2_alg».proof.Proof.Gen.KernelIdeal.Launch
import proofs.«159456_j4861902979305_2_alg».proof.Proof.Gen.KernelIdeal.Points
import proofs.«159456_j4861902979305_2_alg».proof.Proof.Gen.KernelIdeal.Frame
import proofs.«159456_j4861902979305_2_alg».proof.Proof.Gen.ReferenceIdeal
import proofs.«159456_j4861902979305_2_alg».proof.Proof.Gen.Pre_finite_inputs
import proofs.«159456_j4861902979305_2_alg».proof.Proof.Gen.KernelIdeal.Value
import proofs.«159456_j4861902979305_2_alg».proof.Proof.Gen.ReferenceIdeal.Run
import proofs.«159456_j4861902979305_2_alg».proof.Proof.Gen.ReferenceIdeal.Read
import proofs.«159456_j4861902979305_2_alg».proof.Proof.Cell
import proofs.«159456_j4861902979305_2_alg».proof.Proof.KernelArray
import proofs.«159456_j4861902979305_2_alg».proof.Proof.RefCell
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the eleven arguments, the kernel's result array ends at the cell's function of them
    (the 16 blocks, each the cell's row function of its rows) and so does the reference's (its operations read at an
    entry): equal element by element. -/
theorem algebraic : Cert.algebraic_KernelIdeal_ReferenceIdeal := by
  intro m ρ m' ρ' _ hagree
  refine ⟨fun c => Cert.KernelArray.GM m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.RefCell.result_eq]
  obtain ⟨h0, h1, h2, h3, h4, h5, h6, h7, h8, h9, h10⟩ := hagree c
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
